-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x1x4096 : S_.BroadcastsInDim S8x1x4096 (![] : Fin 0 → Fin S8x1x4096.rank)
  reducesTo_S8x1x4096_S_d0_1_2 : S8x1x4096.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1x1024 : S_.BroadcastsInDim S8x1x1024 (![] : Fin 0 → Fin S8x1x1024.rank)
  reducesTo_S8x1x1024_S_d0_1_2 : S8x1x1024.ReducesTo [0, 1, 2] S_

variable [Facts]

def fn_part1 {F : FTy → Type} [FloatOps F] (main_arg4 : FVec F S8x1x4096 .f32) (main_arg5 : FVec F S8x4096x1024 .f32) (main_arg6 : FVec F S8x1x1024 .f32) (main_v13 : IVec S_ 1) (main_v16 : IVec S8x1024x4096 1) : IVec S_ 1 :=
  let main_c_5 : IVec S_ 1 := constantI S_ 1 1#1
  let main_v17 : IVec S_ 1 := (fun x v => Host.reduce IntOp.andi x v reducesTo_S8x1024x4096_S_d0_1_2 h_S_) main_v16 main_c_5
  let main_v18 : IVec S_ 1 := andi main_v13 main_v17
  let main_v19 : FVec F S8x1x4096 .f32 := Host.absf main_arg4
  let main_cst_6 : FVec F S_ .f32 := constant S_ .f32 0x7F800000#32
  let main_v20 : FVec F S8x1x4096 .f32 := broadcastInDim S8x1x4096 ![] bcast_S_S8x1x4096 main_cst_6
  let main_v21 : IVec S8x1x4096 1 := cmpf .olt main_v19 main_v20
  let main_c_7 : IVec S_ 1 := constantI S_ 1 1#1
  let main_v22 : IVec S_ 1 := (fun x v => Host.reduce IntOp.andi x v reducesTo_S8x1x4096_S_d0_1_2 h_S_) main_v21 main_c_7
  let main_v23 : IVec S_ 1 := andi main_v18 main_v22
  let main_v24 : FVec F S8x4096x1024 .f32 := Host.absf main_arg5
  let main_cst_8 : FVec F S_ .f32 := constant S_ .f32 0x7F800000#32
  let main_v25 : FVec F S8x4096x1024 .f32 := broadcastInDim S8x4096x1024 ![] bcast_S_S8x4096x1024 main_cst_8
  let main_v26 : IVec S8x4096x1024 1 := cmpf .olt main_v24 main_v25
  let main_c_9 : IVec S_ 1 := constantI S_ 1 1#1
  let main_v27 : IVec S_ 1 := (fun x v => Host.reduce IntOp.andi x v reducesTo_S8x4096x1024_S_d0_1_2 h_S_) main_v26 main_c_9
  let main_v28 : IVec S_ 1 := andi main_v23 main_v27
  let main_v29 : FVec F S8x1x1024 .f32 := Host.absf main_arg6
  let main_cst_10 : FVec F S_ .f32 := constant S_ .f32 0x7F800000#32
  let main_v30 : FVec F S8x1x1024 .f32 := broadcastInDim S8x1x1024 ![] bcast_S_S8x1x1024 main_cst_10
  let main_v31 : IVec S8x1x1024 1 := cmpf .olt main_v29 main_v30
  let main_c_11 : IVec S_ 1 := constantI S_ 1 1#1
  let main_v32 : IVec S_ 1 := (fun x v => Host.reduce IntOp.andi x v reducesTo_S8x1x1024_S_d0_1_2 h_S_) main_v31 main_c_11
  let main_v33 : IVec S_ 1 := andi main_v28 main_v32
  main_v33

def fn {F : FTy → Type} [FloatOps F] (main_arg0 : FVec F S8x2048x1024 .f32) (main_arg1 : FVec F S8x1024x4096 .f32) (main_arg2 : FVec F S8x1x4096 .f32) (main_arg3 : FVec F S8x1024x4096 .f32) (main_arg4 : FVec F S8x1x4096 .f32) (main_arg5 : FVec F S8x4096x1024 .f32) (main_arg6 : FVec F S8x1x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1x4096 .f32 := Host.absf main_arg2
  let main_cst_2 : FVec F S_ .f32 := constant S_ .f32 0x7F800000#32
  let main_v10 : FVec F S8x1x4096 .f32 := broadcastInDim S8x1x4096 ![] bcast_S_S8x1x4096 main_cst_2
  let main_v11 : IVec S8x1x4096 1 := cmpf .olt main_v9 main_v10
  let main_c_3 : IVec S_ 1 := constantI S_ 1 1#1
  let main_v12 : IVec S_ 1 := (fun x v => Host.reduce IntOp.andi x v reducesTo_S8x1x4096_S_d0_1_2 h_S_) main_v11 main_c_3
  let main_v13 : IVec S_ 1 := andi main_v8 main_v12
  let main_v14 : FVec F S8x1024x4096 .f32 := Host.absf main_arg3
  let main_cst_4 : FVec F S_ .f32 := constant S_ .f32 0x7F800000#32
  let main_v15 : FVec F S8x1024x4096 .f32 := broadcastInDim S8x1024x4096 ![] bcast_S_S8x1024x4096 main_cst_4
  let main_v16 : IVec S8x1024x4096 1 := cmpf .olt main_v14 main_v15
  fn_part1 (F := F) main_arg4 main_arg5 main_arg6 main_v13 main_v16
-- ==== Kernel.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S1x1024x1024 : Shape := ⟨3, ![1, 1024, 1024]⟩
abbrev S1x1024x512 : Shape := ⟨3, ![1, 1024, 512]⟩
abbrev S1x1x512 : Shape := ⟨3, ![1, 1, 512]⟩
abbrev S1x512x1024 : Shape := ⟨3, ![1, 512, 1024]⟩
abbrev S1x1x1024 : Shape := ⟨3, ![1, 1, 1024]⟩
abbrev S1024x1024 : Shape := ⟨2, ![1024, 1024]⟩
abbrev S1024x512 : Shape := ⟨2, ![1024, 512]⟩
abbrev S1x512 : Shape := ⟨2, ![1, 512]⟩
abbrev S512x1024 : Shape := ⟨2, ![512, 1024]⟩
abbrev S1x1024 : Shape := ⟨2, ![1, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x1x4096, .f32⟩
  | .hbm, ⟨3, _⟩ => ⟨S8x1024x4096, .f32⟩
  | .hbm, ⟨4, _⟩ => ⟨S8x1x4096, .f32⟩
  | .hbm, ⟨5, _⟩ => ⟨S8x4096x1024, .f32⟩
  | .hbm, ⟨6, _⟩ => ⟨S8x1x1024, .f32⟩
  | .hbm, ⟨7, _⟩ => ⟨S8x2048x1024, .f32⟩
  | .local _ .vmem, ⟨0, _⟩ => ⟨S1x1024x1024, .f32⟩
  | .local _ .vmem, ⟨1, _⟩ => ⟨S1x1024x512, .f32⟩
  | .local _ .vmem, ⟨2, _⟩ => ⟨S1x1024x512, .f32⟩
  | .local _ .vmem, ⟨3, _⟩ => ⟨S1x1x512, .f32⟩
  | .local _ .vmem, ⟨4, _⟩ => ⟨S1x1x512, .f32⟩
  | .local _ .vmem, ⟨5, _⟩ => ⟨S1x1024x512, .f32⟩
  | .local _ .vmem, ⟨6, _⟩ => ⟨S1x1024x512, .f32⟩
  | .local _ .vmem, ⟨7, _⟩ => ⟨S1x1x512, .f32⟩
  | .local _ .vmem, ⟨8, _⟩ => ⟨S1x1x512, .f32⟩
  | .local _ .vmem, ⟨9, _⟩ => ⟨S1x512x1024, .f32⟩
  | .local _ .vmem, ⟨10, _⟩ => ⟨S1x512x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨3, ![8, 2, 8], ![false, false, false]⟩

def k0_cond1 (i : grid0.Coords) : BitVec 1 :=
  let arg2 : BitVec 32 := BitVec.ofNat 32 (i 2).val
  let c0_i32 : BitVec 32 := 0#32
  let v27 : BitVec 1 := Scalar.cmpi .eq arg2 c0_i32
  let v28 : BitVec 32 := Scalar.extui v27
  let c0_i32_19 : BitVec 32 := 0#32
  let v29 : BitVec 1 := Scalar.cmpi .ne v28 c0_i32_19
  v29

def k0_cond2 (i : grid0.Coords) : BitVec 1 :=
  let arg2 : BitVec 32 := BitVec.ofNat 32 (i 2).val
  let c0_i32_20 : BitVec 32 := 0#32
  let v30 : BitVec 1 := Scalar.cmpi .sgt arg2 c0_i32_20
  let v31 : BitVec 32 := Scalar.extui v30
  let c0_i32_21 : BitVec 32 := 0#32
  let v32 : BitVec 1 := Scalar.cmpi .ne v31 c0_i32_21
  v32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 1 → Memref sig .tc .vmem S1x1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true, false]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 1 → Memref sig .tc .vmem S1x1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  broadcasts_S1x512_S1024x512 : S1x512.Broadcasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S1024x1024_S1x1024x1024 : S1024x1024.ShapeCasts S1x1024x1024
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x2048x1024.size a
  hwx0_0 : ∀ i : grid0.Coords, EltTy.bits .f32 = 32 ∨ (Rect.block (s := S8x2048x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .f32 = 32 ∨ (Rect.block (s := S8x1024x4096) S1x1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x512.size a ≤ S8x1024x4096.size a
  hwx0_3 : ∀ i : grid0.Coords, EltTy.bits .f32 = 32 ∨ (Rect.block (s := S8x1024x4096) S1x1024x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S8x1x4096.size a
  hwx0_4 : ∀ i : grid0.Coords, EltTy.bits .f32 = 32 ∨ (Rect.block (s := S8x1x4096) S1x1x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1024.size a ≤ S8x4096x1024.size a
  hwx0_5 : ∀ i : grid0.Coords, EltTy.bits .f32 = 32 ∨ (Rect.block (s := S8x4096x1024) S1x512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1024.size a ≤ S8x1x1024.size a
  hwx0_6 : ∀ i : grid0.Coords, EltTy.bits .f32 = 32 ∨ (Rect.block (s := S8x1x1024) S1x1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024x1024.size a ≤ S8x2048x1024.size a
  hwx0_7 : ∀ i : grid0.Coords, EltTy.bits .f32 = 32 ∨ (Rect.block (s := S8x2048x1024) S1x1024x1024.size (cc0_transform_7 i) (hinb0_7 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S1x1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x512x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1x1024.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1x1024x1024.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond1 i == 1#1) && !(k0_cond2 i == 1#1) | ⟨_ + 8, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S8x1024x4096 : Shape := ⟨3, ![8, 1024, 4096]⟩
abbrev S8x1x4096 : Shape := ⟨3, ![8, 1, 4096]⟩
abbrev S8x4096x1024 : Shape := ⟨3, ![8, 4096, 1024]⟩
abbrev S8x1x1024 : Shape := ⟨3, ![8, 1, 1024]⟩
abbrev S8x2048x4096 : Shape := ⟨3, ![8, 2048, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x1024x4096, .f32⟩
  | .hbm, ⟨2, _⟩ => ⟨S8x1x4096, .f32⟩
  | .hbm, ⟨3, _⟩ => ⟨S8x1024x4096, .f32⟩
  | .hbm, ⟨4, _⟩ => ⟨S8x1x4096, .f32⟩
  | .hbm, ⟨5, _⟩ => ⟨S8x4096x1024, .f32⟩
  | .hbm, ⟨6, _⟩ => ⟨S8x1x1024, .f32⟩
  | .hbm, ⟨7, _⟩ => ⟨S8x2048x4096, .f32⟩
  | .hbm, ⟨8, _⟩ => ⟨S8x2048x4096, .f32⟩
  | .hbm, ⟨9, _⟩ => ⟨S8x2048x4096, .f32⟩
  | .hbm, ⟨10, _⟩ => ⟨S8x2048x4096, .f32⟩
  | .hbm, ⟨11, _⟩ => ⟨S8x2048x4096, .f32⟩
  | .hbm, ⟨12, _⟩ => ⟨S8x2048x4096, .f32⟩
  | .hbm, ⟨13, _⟩ => ⟨S8x2048x4096, .f32⟩
  | .hbm, ⟨14, _⟩ => ⟨S8x2048x4096, .f32⟩
  | .hbm, ⟨15, _⟩ => ⟨S8x2048x4096, .f32⟩
  | .hbm, ⟨16, _⟩ => ⟨S_, .f32⟩
  | .hbm, ⟨17, _⟩ => ⟨S8x2048x4096, .f32⟩
  | .hbm, ⟨18, _⟩ => ⟨S8x2048x4096, .f32⟩
  | .hbm, ⟨19, _⟩ => ⟨S_, .f32⟩
  | .hbm, ⟨20, _⟩ => ⟨S8x2048x4096, .f32⟩
  | .hbm, ⟨21, _⟩ => ⟨S8x2048x4096, .f32⟩
  | .hbm, ⟨22, _⟩ => ⟨S8x2048x4096, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩

abbrev nD : Nat := 1
abbrev τ : Topo := Topo.v7x

variable {F : FTy → Type} [FloatOps F]

class Facts₀ : Prop where
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1x1024_S8x2048x1024_0_1_2 : S8x1x1024.BroadcastsInDim S8x2048x1024 (![0, 1, 2] : Fin 3 → Fin S8x2048x1024.rank)
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]

variable [Facts₀]

def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf

class Facts : Prop extends Facts₀ where

variable [Facts]
-- ==== Proof.K.Conds.lean ====
/- The two branches of the body read the innermost grid coordinate: the first is taken exactly where it is zero
   (the first of each run of eight consecutive points), the second exactly where it is positive (the other seven). -/
import proofs.«175175_j17128329576653_2_alg».proof.Proof.Gen.Kernel.Frame
import proofs.«175175_j17128329576653_2_alg».proof.Proof.Gen.Kernel.Skeleton

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The "first step" branch is taken exactly at the points whose position is a multiple of eight. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The "later step" branch is taken exactly at the other points. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- One staging buffer of the output window, through which its contents are stated. -/
abbrev outView : View sig .tc .vmem S1x1024x1024 .f32 := (Memref.whole cc0_stg7_0 : Memref sig .tc .vmem S1x1024x1024 .f32).view

end Cert.Kernel.Hand

end
-- ==== Proof.K.RunFirst.lean ====
/- The body at a point where the innermost grid coordinate is zero: it loads the seven input blocks, forms the
   step's contribution, adds the output bias row and stores the sum over the whole output block (the old contents
   of the block are loaded but not used). The stores the run meets are recorded as the list of pieces it returns. -/
import proofs.«175175_j17128329576653_2_alg».proof.Proof.K.Conds

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The pieces the body's stores leave in the output block's buffer at such a point, with the proof that the body,
    started with each input buffer at its contents and the output buffer at any contents, runs to its end, hands the
    inputs back unchanged and the output buffer overwritten by those pieces. -/
noncomputable def runFirst (c : Dev nD) (i : grid0.Coords) (a0 : Memref sig .tc .vmem S1x1024x1024 .f32) (h0 : a0.IsWhole) (a1 : Memref sig .tc .vmem S1x1024x512 .f32) (h1 : a1.IsWhole) (a2 : Memref sig .tc .vmem S1x1x512 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole)
    (hc1 : k0_cond1 i = 1#1) (hc2 : ¬ k0_cond2 i = 1#1)
    (x0 : Vec F S1x1024x1024 .f32) (x1 : Vec F S1x1024x512 .f32) (x2 : Vec F S1x1x512 .f32) (x3 : Vec F S1x1024x512 .f32) (x4 : Vec F S1x1x512 .f32) (x5 : Vec F S1x512x1024 .f32) (x6 : Vec F S1x1x1024 .f32) :
    { L : List (View.Piece (Elt F) S1x1024x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L)) -∗ K ⟨⟩))
          ⊢ wp frame (wpE (defs₀ (F := F)) Variants.none c none) E (cc0__moe_kernel i a0 h0 a1 h1 a2 h2 a3 h3 a4 h4 a5 h5 a6 h6 a7 h7) K } := by
  refine ⟨?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

end Cert.Kernel.Hand

end
-- ==== Proof.K.RunLater.lean ====
/- The body at a point where the innermost grid coordinate is positive: it loads the seven input blocks, forms the
   step's contribution, adds it to what the output block already holds and stores the sum over the whole block.
   The stores the run meets are recorded as the list of pieces it returns. -/
import proofs.«175175_j17128329576653_2_alg».proof.Proof.K.RunFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The pieces the body's stores leave in the output block's buffer at such a point, with the proof that the body,
    started with each input buffer at its contents and the output buffer at `xo`, runs to its end, hands the
    inputs back unchanged and the output buffer overwritten by those pieces. -/
noncomputable def runLater (c : Dev nD) (i : grid0.Coords) (a0 : Memref sig .tc .vmem S1x1024x1024 .f32) (h0 : a0.IsWhole) (a1 : Memref sig .tc .vmem S1x1024x512 .f32) (h1 : a1.IsWhole) (a2 : Memref sig .tc .vmem S1x1x512 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole)
    (hc1 : ¬ k0_cond1 i = 1#1) (hc2 : k0_cond2 i = 1#1)
    (x0 : Vec F S1x1024x1024 .f32) (x1 : Vec F S1x1024x512 .f32) (x2 : Vec F S1x1x512 .f32) (x3 : Vec F S1x1024x512 .f32) (x4 : Vec F S1x1x512 .f32) (x5 : Vec F S1x512x1024 .f32) (x6 : Vec F S1x1x1024 .f32) (xo : Vec F S1x1024x1024 .f32) :
    { L : List (View.Piece (Elt F) S1x1024x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare xo
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L)) -∗ K ⟨⟩))
          ⊢ wp frame (wpE (defs₀ (F := F)) Variants.none c none) E (cc0__moe_kernel i a0 h0 a1 h1 a2 h2 a3 h3 a4 h4 a5 h5 a6 h6 a7 h7) K } := by
  refine ⟨?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

end Cert.Kernel.Hand

end
-- ==== Proof.K.Frame.lean ====
/- What the output block's buffer holds after each grid point, the pipeline's proof data built on it, and the
   body's triple at every point.

   The grid's points come in runs of eight (the innermost coordinate counts the eight slices of the hidden axis).
   At the first point of a run the body stores "contribution + bias row" over the whole output block; at each of
   the other seven it stores "what the block holds + contribution". The block is written back to the result
   array only after the eighth point, so between the points of a run the buffer keeps what the body left. -/
import proofs.«175175_j17128329576653_2_alg».proof.Proof.K.RunLater
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

abbrev sm0 (t : Fin cfg0.N) : Memref sig .tc .vmem S1x1024x1024 .f32 := win0_0.stage (cfg0.slots t 0)
abbrev sw0 (t : Fin cfg0.N) : (sm0 t).IsWhole := hstage0_0 ((cfg0.slots t 0).cast nbuf0_0)
abbrev sm1 (t : Fin cfg0.N) : Memref sig .tc .vmem S1x1024x512 .f32 := win0_1.stage (cfg0.slots t 1)
abbrev sw1 (t : Fin cfg0.N) : (sm1 t).IsWhole := hstage0_1 ((cfg0.slots t 1).cast nbuf0_1)
abbrev sm2 (t : Fin cfg0.N) : Memref sig .tc .vmem S1x1x512 .f32 := win0_2.stage (cfg0.slots t 2)
abbrev sw2 (t : Fin cfg0.N) : (sm2 t).IsWhole := hstage0_2 ((cfg0.slots t 2).cast nbuf0_2)
abbrev sm3 (t : Fin cfg0.N) : Memref sig .tc .vmem S1x1024x512 .f32 := win0_3.stage (cfg0.slots t 3)
abbrev sw3 (t : Fin cfg0.N) : (sm3 t).IsWhole := hstage0_3 ((cfg0.slots t 3).cast nbuf0_3)
abbrev sm4 (t : Fin cfg0.N) : Memref sig .tc .vmem S1x1x512 .f32 := win0_4.stage (cfg0.slots t 4)
abbrev sw4 (t : Fin cfg0.N) : (sm4 t).IsWhole := hstage0_4 ((cfg0.slots t 4).cast nbuf0_4)
abbrev sm5 (t : Fin cfg0.N) : Memref sig .tc .vmem S1x512x1024 .f32 := win0_5.stage (cfg0.slots t 5)
abbrev sw5 (t : Fin cfg0.N) : (sm5 t).IsWhole := hstage0_5 ((cfg0.slots t 5).cast nbuf0_5)
abbrev sm6 (t : Fin cfg0.N) : Memref sig .tc .vmem S1x1x1024 .f32 := win0_6.stage (cfg0.slots t 6)
abbrev sw6 (t : Fin cfg0.N) : (sm6 t).IsWhole := hstage0_6 ((cfg0.slots t 6).cast nbuf0_6)
abbrev sm7 (t : Fin cfg0.N) : Memref sig .tc .vmem S1x1024x1024 .f32 := win0_7.stage (cfg0.slots t 7)
abbrev sw7 (t : Fin cfg0.N) : (sm7 t).IsWhole := hstage0_7 ((cfg0.slots t 7).cast nbuf0_7)

/-! ## The pieces the runs found, read back -/

theorem offsets_zero : (![0, 0, 0] : Fin 3 → Nat) = fun _ => 0 := by
  funext a; fin_cases a <;> rfl

/-- At a first point the one store covers the block. -/
theorem coverFirst (c : Dev nD) (i : grid0.Coords) (a0 : Memref sig .tc .vmem S1x1024x1024 .f32) (h0 : a0.IsWhole) (a1 : Memref sig .tc .vmem S1x1024x512 .f32) (h1 : a1.IsWhole) (a2 : Memref sig .tc .vmem S1x1x512 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole)
    (hc1 : k0_cond1 i = 1#1) (hc2 : ¬ k0_cond2 i = 1#1) (x0 : Vec F S1x1024x1024 .f32) (x1 : Vec F S1x1024x512 .f32) (x2 : Vec F S1x1x512 .f32) (x3 : Vec F S1x1024x512 .f32) (x4 : Vec F S1x1x512 .f32) (x5 : Vec F S1x512x1024 .f32) (x6 : Vec F S1x1x1024 .f32) (y : S1x1024x1024.Idx) :
    ∃ pc ∈ (runFirst (F := F) c i a0 h0 a1 h1 a2 h2 a3 h3 a4 h4 a5 h5 a6 h6 a7 h7 hc1 hc2 x0 x1 x2 x3 x4 x5 x6).1, y ∈ pc.1.set :=
  View.cover_of_tiledL (runFirst (F := F) c i a0 h0 a1 h1 a2 h2 a3 h3 a4 h4 a5 h5 a6 h6 a7 h7 hc1 hc2 x0 x1 x2 x3 x4 x5 x6).1 S1x1024x1024.size (by sl_kernel_rfl) y

/-- At a later point the one store covers the block. -/
theorem coverLater (c : Dev nD) (i : grid0.Coords) (a0 : Memref sig .tc .vmem S1x1024x1024 .f32) (h0 : a0.IsWhole) (a1 : Memref sig .tc .vmem S1x1024x512 .f32) (h1 : a1.IsWhole) (a2 : Memref sig .tc .vmem S1x1x512 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole)
    (hc1 : ¬ k0_cond1 i = 1#1) (hc2 : k0_cond2 i = 1#1) (x0 : Vec F S1x1024x1024 .f32) (x1 : Vec F S1x1024x512 .f32) (x2 : Vec F S1x1x512 .f32) (x3 : Vec F S1x1024x512 .f32) (x4 : Vec F S1x1x512 .f32) (x5 : Vec F S1x512x1024 .f32) (x6 : Vec F S1x1x1024 .f32) (xo : Vec F S1x1024x1024 .f32) (y : S1x1024x1024.Idx) :
    ∃ pc ∈ (runLater (F := F) c i a0 h0 a1 h1 a2 h2 a3 h3 a4 h4 a5 h5 a6 h6 a7 h7 hc1 hc2 x0 x1 x2 x3 x4 x5 x6 xo).1, y ∈ pc.1.set :=
  View.cover_of_tiledL (runLater (F := F) c i a0 h0 a1 h1 a2 h2 a3 h3 a4 h4 a5 h5 a6 h6 a7 h7 hc1 hc2 x0 x1 x2 x3 x4 x5 x6 xo).1 S1x1024x1024.size (by sl_kernel_rfl) y

/-- What a first point leaves in the output buffer, through any view and over any earlier contents: the step's
    contribution plus the bias row, as one term of the seven input blocks. -/
theorem storedFirst (c : Dev nD) (i : grid0.Coords) (a0 : Memref sig .tc .vmem S1x1024x1024 .f32) (h0 : a0.IsWhole) (a1 : Memref sig .tc .vmem S1x1024x512 .f32) (h1 : a1.IsWhole) (a2 : Memref sig .tc .vmem S1x1x512 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole)
    (hc1 : k0_cond1 i = 1#1) (hc2 : ¬ k0_cond2 i = 1#1) (x0 : Vec F S1x1024x1024 .f32) (x1 : Vec F S1x1024x512 .f32) (x2 : Vec F S1x1x512 .f32) (x3 : Vec F S1x1024x512 .f32) (x4 : Vec F S1x1x512 .f32) (x5 : Vec F S1x512x1024 .f32) (x6 : Vec F S1x1x1024 .f32)
    {sig' : RefSig} {κ : Kind} {sp : Space} (v : View sig' κ sp S1x1024x1024 .f32) (f : v.ty.Contents (Elt F)) :
    v.read (Elt F) (v.writes (Elt F) f (runFirst (F := F) c i a0 h0 a1 h1 a2 h2 a3 h3 a4 h4 a5 h5 a6 h6 a7 h7 hc1 hc2 x0 x1 x2 x3 x4 x5 x6).1)
      = k0_pay3 x0 x1 x3 x2 x4 x5 x6 := by
  rw [View.read_writes_eq_canon _ _ _ (coverFirst c i a0 h0 a1 h1 a2 h2 a3 h3 a4 h4 a5 h5 a6 h6 a7 h7 hc1 hc2 x0 x1 x2 x3 x4 x5 x6)]
  unfold runFirst; dsimp only
  rw [View.canon_unit_zero offsets_zero]
  simp only [View.readAt_eq_ld, Memref.IsWhole.read_unread, View.ld_unit_zero (S := S1x1024x1024) offsets_zero,
    View.ld_unit_zero (S := S1x1024x512) offsets_zero, View.ld_unit_zero (S := S1x1x512) offsets_zero,
    View.ld_unit_zero (S := S1x512x1024) offsets_zero, View.ld_unit_zero (S := S1x1x1024) offsets_zero]

/-- What a later point leaves there: the old contents plus the step's contribution. -/
theorem storedLater (c : Dev nD) (i : grid0.Coords) (a0 : Memref sig .tc .vmem S1x1024x1024 .f32) (h0 : a0.IsWhole) (a1 : Memref sig .tc .vmem S1x1024x512 .f32) (h1 : a1.IsWhole) (a2 : Memref sig .tc .vmem S1x1x512 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole)
    (hc1 : ¬ k0_cond1 i = 1#1) (hc2 : k0_cond2 i = 1#1) (x0 : Vec F S1x1024x1024 .f32) (x1 : Vec F S1x1024x512 .f32) (x2 : Vec F S1x1x512 .f32) (x3 : Vec F S1x1024x512 .f32) (x4 : Vec F S1x1x512 .f32) (x5 : Vec F S1x512x1024 .f32) (x6 : Vec F S1x1x1024 .f32) (xo : Vec F S1x1024x1024 .f32)
    {sig' : RefSig} {κ : Kind} {sp : Space} (v : View sig' κ sp S1x1024x1024 .f32) (f : v.ty.Contents (Elt F)) :
    v.read (Elt F) (v.writes (Elt F) f (runLater (F := F) c i a0 h0 a1 h1 a2 h2 a3 h3 a4 h4 a5 h5 a6 h6 a7 h7 hc1 hc2 x0 x1 x2 x3 x4 x5 x6 xo).1)
      = k0_pay1 (k0_pay2 x0 x1 x3 x2 x4 x5) xo := by
  rw [View.read_writes_eq_canon _ _ _ (coverLater c i a0 h0 a1 h1 a2 h2 a3 h3 a4 h4 a5 h5 a6 h6 a7 h7 hc1 hc2 x0 x1 x2 x3 x4 x5 x6 xo)]
  unfold runLater; dsimp only
  sl_unfold_words
  rw [View.canon_unit_zero offsets_zero]
  simp only [View.readAt_eq_ld, Memref.IsWhole.read_unread, View.ld_unit_zero (S := S1x1024x1024) offsets_zero,
    View.ld_unit_zero (S := S1x1024x512) offsets_zero, View.ld_unit_zero (S := S1x1x512) offsets_zero,
    View.ld_unit_zero (S := S1x512x1024) offsets_zero, View.ld_unit_zero (S := S1x1x1024) offsets_zero]

/-! ## The output block's buffer, point by point -/

/-- The step's contribution at point `t`: the gated product of the two projections of the token block, times the
    slice of the output projection, as the body computes it from the point's six blocks. -/
def contrib (c : Dev nD) (t : Fin cfg0.N) : FVec F S1024x1024 .f32 :=
  k0_pay2 (iblk m c 0 t) (iblk m c 1 t) (iblk m c 3 t) (iblk m c 2 t) (iblk m c 4 t) (iblk m c 5 t)

/-- What a first point stores: its contribution plus the bias row. -/
def firstVal (c : Dev nD) (t : Fin cfg0.N) : Vec F S1x1024x1024 .f32 :=
  k0_pay3 (iblk m c 0 t) (iblk m c 1 t) (iblk m c 3 t) (iblk m c 2 t) (iblk m c 4 t) (iblk m c 5 t) (iblk m c 6 t)

/-- What the output block's buffer holds after the body at position `n`: a first point's store, or the store of a
    later point over what position `n - 1` left. -/
def accAt (c : Dev nD) : (n : ℕ) → n < cfg0.N → Vec F S1x1024x1024 .f32
  | 0, hn => firstVal m c ⟨0, hn⟩
  | n + 1, hn =>
    if (n + 1) % 8 = 0 then firstVal m c ⟨n + 1, hn⟩
    else k0_pay1 (contrib m c ⟨n + 1, hn⟩) (accAt c n (Nat.lt_of_succ_lt hn))

theorem accAt_first (c : Dev nD) (t : Fin cfg0.N) (h : t.val % 8 = 0) :
    accAt m c t.val t.isLt = firstVal m c t := by
  obtain ⟨n, hn⟩ := t
  cases n with
  | zero => rfl
  | succ n => exact (if_pos h).trans rfl

theorem accAt_later (c : Dev nD) (t : Fin cfg0.N) (h : ¬ t.val % 8 = 0) :
    accAt m c t.val t.isLt
      = k0_pay1 (contrib m c t) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The proof data -/

/-- The arrays as the region finds them; after the body each input's buffer still at its block and the output's at
    `accAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t = accAt m c t.val t.isLt := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d
theorem before_in6 (c : Dev nD) (t : Fin cfg0.N) (d) : (dats m 0 c).before 6 t d = iblk m c 6 t :=
  before0_6_of m (dats m 0 c) (A_eq m c 6) (after_in6 m c) t d

/-- The output window is never idle: one of the two branches is taken at every point. -/
theorem out_live : ∀ i : grid0.Coords, cfg0.idle 7 i = false := fun i => by
  show (!(k0_cond1 i == 1#1) && !(k0_cond2 i == 1#1)) = false
  unfold k0_cond1 k0_cond2
  generalize i 2 = x
  revert x
  decide

/-- At a later point of a run the output buffer holds what the point before left: the block was not written back
    in between. -/
theorem before_out_later (c : Dev nD) (t : Fin cfg0.N) (h : ¬ t.val % 8 = 0) (d) :
    (dats m 0 c).before 7 t d = accAt m c (t.val - 1) (Nat.lt_of_le_of_lt (Nat.sub_le _ _) t.isLt) := by
  have hN : t.val < 128 := lt_of_lt_of_eq t.isLt (show cfg0.N = 128 from N_0)
  rw [Dat.before_out_kept _ 7 rfl t (by omega)
    (Bool.eq_false_iff.mpr fun hf => by have := (flush0_7 _).mp hf; dsimp only at this; omega)
    out_live (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d))
    ∗ (∃ d, owns (c : Thread nD τ) (sm7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (sm0 t) fullShare ((dats m 0 c).after 0 t)
    ∗ owns (c : Thread nD τ) (sm1 t) fullShare ((dats m 0 c).after 1 t)
    ∗ owns (c : Thread nD τ) (sm2 t) fullShare ((dats m 0 c).after 2 t)
    ∗ owns (c : Thread nD τ) (sm3 t) fullShare ((dats m 0 c).after 3 t)
    ∗ owns (c : Thread nD τ) (sm4 t) fullShare ((dats m 0 c).after 4 t)
    ∗ owns (c : Thread nD τ) (sm5 t) fullShare ((dats m 0 c).after 5 t)
    ∗ owns (c : Thread nD τ) (sm6 t) fullShare ((dats m 0 c).after 6 t)
    ∗ owns (c : Thread nD τ) (sm7 t) fullShare ((dats m 0 c).after 7 t))

set_option maxHeartbeats 1600000 in
/-- The body at any point: the inputs' buffers hold their blocks; the position within the run of eight says which
    branch is taken; at a later point the output buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  by_cases h : t.val % 8 = 0
  · rw [accAt_first m c t h]
    unfold firstVal
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t) _ _ _ _ _ _ _ _ _ _ _ _ _ _ _ _ ((first_iff t).mpr h) (fun h2 => (later_iff t).mp h2 h)
      (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact storedFirst c _ _ _ _ _ _ _ _ _ _ _ _ _ _ _ _ _ _ _ _ _ _ _ _ _ _ _ _
  · rw [accAt_later m c t h]
    simp only [before_out_later m c t h]
    unfold contrib
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) _ _ _ _ _ _ _ _ _ _ _ _ _ _ _ _ (fun h1 => h ((first_iff t).mp h1)) ((later_iff t).mpr h)
      (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact storedLater c _ _ _ _ _ _ _ _ _ _ _ _ _ _ _ _ _ _ _ _ _ _ _ _ _ _ _ _ _

end Cert.Kernel.Hand

end
-- ==== Proof.K.Run.lean ====
/- The body's obligation at every point of the grid, the run of the whole program (it terminates, nothing faults)
   and the frame: every argument array ends as it began. -/
import proofs.«175175_j17128329576653_2_alg».proof.Proof.K.Frame

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem body_obligation (c : Dev nD) : BodyObligation (dats (F := F) m 0 c) (defs₀ (F := F)) Variants.none () Set.univ := fun t => by
  rw [bigSep_W0, bigSep_W0]
  rw [out_live (cfg0.grid.coords t)]
  exact sound_body m c t

/-! ## The run and the frame -/

set_option backward.isDefEq.respectTransparency.types false in
/-- Every weakly fair execution of the program terminates, and every final state has each array of the pipeline at
    what the proof data says and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Hand

end
-- ==== Proof.KI.Conds.lean ====
/- The two branches of the body read the innermost grid coordinate: the first is taken exactly where it is zero
   (the first of each run of eight consecutive points), the second exactly where it is positive (the other seven). -/
import proofs.«175175_j17128329576653_2_alg».proof.Proof.Gen.KernelIdeal.Frame
import proofs.«175175_j17128329576653_2_alg».proof.Proof.Gen.KernelIdeal.Skeleton

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The "first step" branch is taken exactly at the points whose position is a multiple of eight. -/
theorem first_iff : ∀ t : Fin cfg0.N, k0_cond1 (grid0.coords t) = 1#1 ↔ t.val % 8 = 0 :=
  (by decide +kernel : ∀ t : Fin grid0.N, k0_cond1 (grid0.coords t) = 1#1 ↔ t.val % 8 = 0)

/-- The "later step" branch is taken exactly at the other points. -/
theorem later_iff : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)

/-- One staging buffer of the output window, through which its contents are stated. -/
abbrev outView : View sig .tc .vmem S1x1024x1024 .f32 := (Memref.whole cc0_stg7_0 : Memref sig .tc .vmem S1x1024x1024 .f32).view

end Cert.KernelIdeal.Hand

end
-- ==== Proof.KI.RunFirst.lean ====
/- The body at a point where the innermost grid coordinate is zero: it loads the seven input blocks, forms the
   step's contribution, adds the output bias row and stores the sum over the whole output block (the old contents
   of the block are loaded but not used). The stores the run meets are recorded as the list of pieces it returns. -/
import proofs.«175175_j17128329576653_2_alg».proof.Proof.KI.Conds

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The pieces the body's stores leave in the output block's buffer at such a point, with the proof that the body,
    started with each input buffer at its contents and the output buffer at any contents, runs to its end, hands the
    inputs back unchanged and the output buffer overwritten by those pieces. -/
noncomputable def runFirst (c : Dev nD) (i : grid0.Coords) (a0 : Memref sig .tc .vmem S1x1024x1024 .f32) (h0 : a0.IsWhole) (a1 : Memref sig .tc .vmem S1x1024x512 .f32) (h1 : a1.IsWhole) (a2 : Memref sig .tc .vmem S1x1x512 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole)
    (hc1 : k0_cond1 i = 1#1) (hc2 : ¬ k0_cond2 i = 1#1)
    (x0 : Vec F S1x1024x1024 .f32) (x1 : Vec F S1x1024x512 .f32) (x2 : Vec F S1x1x512 .f32) (x3 : Vec F S1x1024x512 .f32) (x4 : Vec F S1x1x512 .f32) (x5 : Vec F S1x512x1024 .f32) (x6 : Vec F S1x1x1024 .f32) :
    { L : List (View.Piece (Elt F) S1x1024x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ d, owns (c : Thread nD τ) a7 fullShare d)
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L)) -∗ K ⟨⟩))
          ⊢ wp frame (wpE (defs₀ (F := F)) Variants.none c none) E (cc0__moe_kernel i a0 h0 a1 h1 a2 h2 a3 h3 a4 h4 a5 h5 a6 h6 a7 h7) K } := by
  refine ⟨?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

end Cert.KernelIdeal.Hand

end
-- ==== Proof.KI.RunLater.lean ====
/- The body at a point where the innermost grid coordinate is positive: it loads the seven input blocks, forms the
   step's contribution, adds it to what the output block already holds and stores the sum over the whole block.
   The stores the run meets are recorded as the list of pieces it returns. -/
import proofs.«175175_j17128329576653_2_alg».proof.Proof.KI.RunFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1600000 in
/-- The pieces the body's stores leave in the output block's buffer at such a point, with the proof that the body,
    started with each input buffer at its contents and the output buffer at `xo`, runs to its end, hands the
    inputs back unchanged and the output buffer overwritten by those pieces. -/
noncomputable def runLater (c : Dev nD) (i : grid0.Coords) (a0 : Memref sig .tc .vmem S1x1024x1024 .f32) (h0 : a0.IsWhole) (a1 : Memref sig .tc .vmem S1x1024x512 .f32) (h1 : a1.IsWhole) (a2 : Memref sig .tc .vmem S1x1x512 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole)
    (hc1 : ¬ k0_cond1 i = 1#1) (hc2 : k0_cond2 i = 1#1)
    (x0 : Vec F S1x1024x1024 .f32) (x1 : Vec F S1x1024x512 .f32) (x2 : Vec F S1x1x512 .f32) (x3 : Vec F S1x1024x512 .f32) (x4 : Vec F S1x1x512 .f32) (x5 : Vec F S1x512x1024 .f32) (x6 : Vec F S1x1x1024 .f32) (xo : Vec F S1x1024x1024 .f32) :
    { L : List (View.Piece (Elt F) S1x1024x1024 .f32) //
      ∀ (E : Set ℕ) (K : PUnit → sProp 𝕄),
        iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare xo
            ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ (∃ f, a7.view.loc (c : Thread nD τ) ↦[a7.view.set]{fullShare} a7.view.writes (Elt F) f L)) -∗ K ⟨⟩))
          ⊢ wp frame (wpE (defs₀ (F := F)) Variants.none c none) E (cc0__moe_kernel i a0 h0 a1 h1 a2 h2 a3 h3 a4 h4 a5 h5 a6 h6 a7 h7) K } := by
  refine ⟨?_, fun E K => ?run⟩
  case run =>
    simp only [cc0__moe_kernel_eq_skeleton]; unfold cc0__moe_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
    obtain rfl := h0.eq_unread hf0; obtain rfl := h1.eq_unread hf1; obtain rfl := h2.eq_unread hf2; obtain rfl := h3.eq_unread hf3; obtain rfl := h4.eq_unread hf4; obtain rfl := h5.eq_unread hf5; obtain rfl := h6.eq_unread hf6; obtain rfl := h7.eq_unread hf7
    sl_exec (disch := first | exact hc1 | exact hc2)
    sl_step
    iapply Hk
    isplitl [H0]
    · iexists _; isplitr; · ipureintro; exact h0.read_unread _
      iexact H0
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    iexists _; iexact H7

end Cert.KernelIdeal.Hand

end
-- ==== Proof.KI.Frame.lean ====
/- What the output block's buffer holds after each grid point, the pipeline's proof data built on it, and the
   body's triple at every point.

   The grid's points come in runs of eight (the innermost coordinate counts the eight slices of the hidden axis).
   At the first point of a run the body stores "contribution + bias row" over the whole output block; at each of
   the other seven it stores "what the block holds + contribution". The block is written back to the result
   array only after the eighth point, so between the points of a run the buffer keeps what the body left. -/
import proofs.«175175_j17128329576653_2_alg».proof.Proof.KI.RunLater
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging buffers at a point -/

abbrev sm0 (t : Fin cfg0.N) : Memref sig .tc .vmem S1x1024x1024 .f32 := win0_0.stage (cfg0.slots t 0)
abbrev sw0 (t : Fin cfg0.N) : (sm0 t).IsWhole := hstage0_0 ((cfg0.slots t 0).cast nbuf0_0)
abbrev sm1 (t : Fin cfg0.N) : Memref sig .tc .vmem S1x1024x512 .f32 := win0_1.stage (cfg0.slots t 1)
abbrev sw1 (t : Fin cfg0.N) : (sm1 t).IsWhole := hstage0_1 ((cfg0.slots t 1).cast nbuf0_1)
abbrev sm2 (t : Fin cfg0.N) : Memref sig .tc .vmem S1x1x512 .f32 := win0_2.stage (cfg0.slots t 2)
abbrev sw2 (t : Fin cfg0.N) : (sm2 t).IsWhole := hstage0_2 ((cfg0.slots t 2).cast nbuf0_2)
abbrev sm3 (t : Fin cfg0.N) : Memref sig .tc .vmem S1x1024x512 .f32 := win0_3.stage (cfg0.slots t 3)
abbrev sw3 (t : Fin cfg0.N) : (sm3 t).IsWhole := hstage0_3 ((cfg0.slots t 3).cast nbuf0_3)
abbrev sm4 (t : Fin cfg0.N) : Memref sig .tc .vmem S1x1x512 .f32 := win0_4.stage (cfg0.slots t 4)
abbrev sw4 (t : Fin cfg0.N) : (sm4 t).IsWhole := hstage0_4 ((cfg0.slots t 4).cast nbuf0_4)
abbrev sm5 (t : Fin cfg0.N) : Memref sig .tc .vmem S1x512x1024 .f32 := win0_5.stage (cfg0.slots t 5)
abbrev sw5 (t : Fin cfg0.N) : (sm5 t).IsWhole := hstage0_5 ((cfg0.slots t 5).cast nbuf0_5)
abbrev sm6 (t : Fin cfg0.N) : Memref sig .tc .vmem S1x1x1024 .f32 := win0_6.stage (cfg0.slots t 6)
abbrev sw6 (t : Fin cfg0.N) : (sm6 t).IsWhole := hstage0_6 ((cfg0.slots t 6).cast nbuf0_6)
abbrev sm7 (t : Fin cfg0.N) : Memref sig .tc .vmem S1x1024x1024 .f32 := win0_7.stage (cfg0.slots t 7)
abbrev sw7 (t : Fin cfg0.N) : (sm7 t).IsWhole := hstage0_7 ((cfg0.slots t 7).cast nbuf0_7)

/-! ## The pieces the runs found, read back -/

theorem offsets_zero : (![0, 0, 0] : Fin 3 → Nat) = fun _ => 0 := by
  funext a; fin_cases a <;> rfl

/-- At a first point the one store covers the block. -/
theorem coverFirst (c : Dev nD) (i : grid0.Coords) (a0 : Memref sig .tc .vmem S1x1024x1024 .f32) (h0 : a0.IsWhole) (a1 : Memref sig .tc .vmem S1x1024x512 .f32) (h1 : a1.IsWhole) (a2 : Memref sig .tc .vmem S1x1x512 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole)
    (hc1 : k0_cond1 i = 1#1) (hc2 : ¬ k0_cond2 i = 1#1) (x0 : Vec F S1x1024x1024 .f32) (x1 : Vec F S1x1024x512 .f32) (x2 : Vec F S1x1x512 .f32) (x3 : Vec F S1x1024x512 .f32) (x4 : Vec F S1x1x512 .f32) (x5 : Vec F S1x512x1024 .f32) (x6 : Vec F S1x1x1024 .f32) (y : S1x1024x1024.Idx) :
    ∃ pc ∈ (runFirst (F := F) c i a0 h0 a1 h1 a2 h2 a3 h3 a4 h4 a5 h5 a6 h6 a7 h7 hc1 hc2 x0 x1 x2 x3 x4 x5 x6).1, y ∈ pc.1.set :=
  View.cover_of_tiledL (runFirst (F := F) c i a0 h0 a1 h1 a2 h2 a3 h3 a4 h4 a5 h5 a6 h6 a7 h7 hc1 hc2 x0 x1 x2 x3 x4 x5 x6).1 S1x1024x1024.size (by sl_kernel_rfl) y

/-- At a later point the one store covers the block. -/
theorem coverLater (c : Dev nD) (i : grid0.Coords) (a0 : Memref sig .tc .vmem S1x1024x1024 .f32) (h0 : a0.IsWhole) (a1 : Memref sig .tc .vmem S1x1024x512 .f32) (h1 : a1.IsWhole) (a2 : Memref sig .tc .vmem S1x1x512 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole)
    (hc1 : ¬ k0_cond1 i = 1#1) (hc2 : k0_cond2 i = 1#1) (x0 : Vec F S1x1024x1024 .f32) (x1 : Vec F S1x1024x512 .f32) (x2 : Vec F S1x1x512 .f32) (x3 : Vec F S1x1024x512 .f32) (x4 : Vec F S1x1x512 .f32) (x5 : Vec F S1x512x1024 .f32) (x6 : Vec F S1x1x1024 .f32) (xo : Vec F S1x1024x1024 .f32) (y : S1x1024x1024.Idx) :
    ∃ pc ∈ (runLater (F := F) c i a0 h0 a1 h1 a2 h2 a3 h3 a4 h4 a5 h5 a6 h6 a7 h7 hc1 hc2 x0 x1 x2 x3 x4 x5 x6 xo).1, y ∈ pc.1.set :=
  View.cover_of_tiledL (runLater (F := F) c i a0 h0 a1 h1 a2 h2 a3 h3 a4 h4 a5 h5 a6 h6 a7 h7 hc1 hc2 x0 x1 x2 x3 x4 x5 x6 xo).1 S1x1024x1024.size (by sl_kernel_rfl) y

/-- What a first point leaves in the output buffer, through any view and over any earlier contents: the step's
    contribution plus the bias row, as one term of the seven input blocks. -/
theorem storedFirst (c : Dev nD) (i : grid0.Coords) (a0 : Memref sig .tc .vmem S1x1024x1024 .f32) (h0 : a0.IsWhole) (a1 : Memref sig .tc .vmem S1x1024x512 .f32) (h1 : a1.IsWhole) (a2 : Memref sig .tc .vmem S1x1x512 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole)
    (hc1 : k0_cond1 i = 1#1) (hc2 : ¬ k0_cond2 i = 1#1) (x0 : Vec F S1x1024x1024 .f32) (x1 : Vec F S1x1024x512 .f32) (x2 : Vec F S1x1x512 .f32) (x3 : Vec F S1x1024x512 .f32) (x4 : Vec F S1x1x512 .f32) (x5 : Vec F S1x512x1024 .f32) (x6 : Vec F S1x1x1024 .f32)
    {sig' : RefSig} {κ : Kind} {sp : Space} (v : View sig' κ sp S1x1024x1024 .f32) (f : v.ty.Contents (Elt F)) :
    v.read (Elt F) (v.writes (Elt F) f (runFirst (F := F) c i a0 h0 a1 h1 a2 h2 a3 h3 a4 h4 a5 h5 a6 h6 a7 h7 hc1 hc2 x0 x1 x2 x3 x4 x5 x6).1)
      = k0_pay3 x0 x1 x3 x2 x4 x5 x6 := by
  rw [View.read_writes_eq_canon _ _ _ (coverFirst c i a0 h0 a1 h1 a2 h2 a3 h3 a4 h4 a5 h5 a6 h6 a7 h7 hc1 hc2 x0 x1 x2 x3 x4 x5 x6)]
  unfold runFirst; dsimp only
  rw [View.canon_unit_zero offsets_zero]
  simp only [View.readAt_eq_ld, Memref.IsWhole.read_unread, View.ld_unit_zero (S := S1x1024x1024) offsets_zero,
    View.ld_unit_zero (S := S1x1024x512) offsets_zero, View.ld_unit_zero (S := S1x1x512) offsets_zero,
    View.ld_unit_zero (S := S1x512x1024) offsets_zero, View.ld_unit_zero (S := S1x1x1024) offsets_zero]

/-- What a later point leaves there: the old contents plus the step's contribution. -/
theorem storedLater (c : Dev nD) (i : grid0.Coords) (a0 : Memref sig .tc .vmem S1x1024x1024 .f32) (h0 : a0.IsWhole) (a1 : Memref sig .tc .vmem S1x1024x512 .f32) (h1 : a1.IsWhole) (a2 : Memref sig .tc .vmem S1x1x512 .f32) (h2 : a2.IsWhole) (a3 : Memref sig .tc .vmem S1x1024x512 .f32) (h3 : a3.IsWhole) (a4 : Memref sig .tc .vmem S1x1x512 .f32) (h4 : a4.IsWhole) (a5 : Memref sig .tc .vmem S1x512x1024 .f32) (h5 : a5.IsWhole) (a6 : Memref sig .tc .vmem S1x1x1024 .f32) (h6 : a6.IsWhole) (a7 : Memref sig .tc .vmem S1x1024x1024 .f32) (h7 : a7.IsWhole)
    (hc1 : ¬ k0_cond1 i = 1#1) (hc2 : k0_cond2 i = 1#1) (x0 : Vec F S1x1024x1024 .f32) (x1 : Vec F S1x1024x512 .f32) (x2 : Vec F S1x1x512 .f32) (x3 : Vec F S1x1024x512 .f32) (x4 : Vec F S1x1x512 .f32) (x5 : Vec F S1x512x1024 .f32) (x6 : Vec F S1x1x1024 .f32) (xo : Vec F S1x1024x1024 .f32)
    {sig' : RefSig} {κ : Kind} {sp : Space} (v : View sig' κ sp S1x1024x1024 .f32) (f : v.ty.Contents (Elt F)) :
    v.read (Elt F) (v.writes (Elt F) f (runLater (F := F) c i a0 h0 a1 h1 a2 h2 a3 h3 a4 h4 a5 h5 a6 h6 a7 h7 hc1 hc2 x0 x1 x2 x3 x4 x5 x6 xo).1)
      = k0_pay1 (k0_pay2 x0 x1 x3 x2 x4 x5) xo := by
  rw [View.read_writes_eq_canon _ _ _ (coverLater c i a0 h0 a1 h1 a2 h2 a3 h3 a4 h4 a5 h5 a6 h6 a7 h7 hc1 hc2 x0 x1 x2 x3 x4 x5 x6 xo)]
  unfold runLater; dsimp only
  sl_unfold_words
  rw [View.canon_unit_zero offsets_zero]
  simp only [View.readAt_eq_ld, Memref.IsWhole.read_unread, View.ld_unit_zero (S := S1x1024x1024) offsets_zero,
    View.ld_unit_zero (S := S1x1024x512) offsets_zero, View.ld_unit_zero (S := S1x1x512) offsets_zero,
    View.ld_unit_zero (S := S1x512x1024) offsets_zero, View.ld_unit_zero (S := S1x1x1024) offsets_zero]

/-! ## The output block's buffer, point by point -/

/-- The step's contribution at point `t`: the gated product of the two projections of the token block, times the
    slice of the output projection, as the body computes it from the point's six blocks. -/
def contrib (c : Dev nD) (t : Fin cfg0.N) : FVec F S1024x1024 .f32 :=
  k0_pay2 (iblk m c 0 t) (iblk m c 1 t) (iblk m c 3 t) (iblk m c 2 t) (iblk m c 4 t) (iblk m c 5 t)

/-- What a first point stores: its contribution plus the bias row. -/
def firstVal (c : Dev nD) (t : Fin cfg0.N) : Vec F S1x1024x1024 .f32 :=
  k0_pay3 (iblk m c 0 t) (iblk m c 1 t) (iblk m c 3 t) (iblk m c 2 t) (iblk m c 4 t) (iblk m c 5 t) (iblk m c 6 t)

/-- What the output block's buffer holds after the body at position `n`: a first point's store, or the store of a
    later point over what position `n - 1` left. -/
def accAt (c : Dev nD) : (n : ℕ) → n < cfg0.N → Vec F S1x1024x1024 .f32
  | 0, hn => firstVal m c ⟨0, hn⟩
  | n + 1, hn =>
    if (n + 1) % 8 = 0 then firstVal m c ⟨n + 1, hn⟩
    else k0_pay1 (contrib m c ⟨n + 1, hn⟩) (accAt c n (Nat.lt_of_succ_lt hn))

theorem accAt_first (c : Dev nD) (t : Fin cfg0.N) (h : t.val % 8 = 0) :
    accAt m c t.val t.isLt = firstVal m c t := by
  obtain ⟨n, hn⟩ := t
  cases n with
  | zero => rfl
  | succ n => exact (if_pos h).trans rfl

theorem accAt_later (c : Dev nD) (t : Fin cfg0.N) (h : ¬ t.val % 8 = 0) :
    accAt m c t.val t.isLt
      = k0_pay1 (contrib m c t) (accAt m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The proof data -/

/-- The arrays as the region finds them; after the body each input's buffer still at its block and the output's at
    `accAt`; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_in6 (c : Dev nD) (t : Fin cfg0.N) : (dats m 0 c).after 6 t = iblk m c 6 t := by dsimp only [dats]
theorem after_out (c : Dev nD) (t : Fin cfg0.N) : (dats m 0 c).after 7 t = accAt m c t.val t.isLt := by dsimp only [dats]

theorem before_in0 (c : Dev nD) (t : Fin cfg0.N) (d) : (dats m 0 c).before 0 t d = iblk m c 0 t :=
  before0_0_of m (dats m 0 c) (A_eq m c 0) (after_in0 m c) t d
theorem before_in1 (c : Dev nD) (t : Fin cfg0.N) (d) : (dats m 0 c).before 1 t d = iblk m c 1 t :=
  before0_1_of m (dats m 0 c) (A_eq m c 1) (after_in1 m c) t d
theorem before_in2 (c : Dev nD) (t : Fin cfg0.N) (d) : (dats m 0 c).before 2 t d = iblk m c 2 t :=
  before0_2_of m (dats m 0 c) (A_eq m c 2) (after_in2 m c) t d
theorem before_in3 (c : Dev nD) (t : Fin cfg0.N) (d) : (dats m 0 c).before 3 t d = iblk m c 3 t :=
  before0_3_of m (dats m 0 c) (A_eq m c 3) (after_in3 m c) t d
theorem before_in4 (c : Dev nD) (t : Fin cfg0.N) (d) : (dats m 0 c).before 4 t d = iblk m c 4 t :=
  before0_4_of m (dats m 0 c) (A_eq m c 4) (after_in4 m c) t d
theorem before_in5 (c : Dev nD) (t : Fin cfg0.N) (d) : (dats m 0 c).before 5 t d = iblk m c 5 t :=
  before0_5_of m (dats m 0 c) (A_eq m c 5) (after_in5 m c) t d
theorem before_in6 (c : Dev nD) (t : Fin cfg0.N) (d) : (dats m 0 c).before 6 t d = iblk m c 6 t :=
  before0_6_of m (dats m 0 c) (A_eq m c 6) (after_in6 m c) t d

/-- The output window is never idle: one of the two branches is taken at every point. -/
theorem out_live : ∀ i : grid0.Coords, cfg0.idle 7 i = false := fun i => by
  show (!(k0_cond1 i == 1#1) && !(k0_cond2 i == 1#1)) = false
  unfold k0_cond1 k0_cond2
  generalize i 2 = x
  revert x
  decide

/-- At a later point of a run the output buffer holds what the point before left: the block was not written back
    in between. -/
theorem before_out_later (c : Dev nD) (t : Fin cfg0.N) (h : ¬ t.val % 8 = 0) (d) :
    (dats m 0 c).before 7 t d = accAt m c (t.val - 1) (Nat.lt_of_le_of_lt (Nat.sub_le _ _) t.isLt) := by
  have hN : t.val < 128 := lt_of_lt_of_eq t.isLt (show cfg0.N = 128 from N_0)
  rw [Dat.before_out_kept _ 7 rfl t (by omega)
    (Bool.eq_false_iff.mpr fun hf => by have := (flush0_7 _).mp hf; dsimp only at this; omega)
    out_live (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (sm0 t) fullShare ((dats m 0 c).before 0 t d))
    ∗ (∃ d, owns (c : Thread nD τ) (sm1 t) fullShare ((dats m 0 c).before 1 t d))
    ∗ (∃ d, owns (c : Thread nD τ) (sm2 t) fullShare ((dats m 0 c).before 2 t d))
    ∗ (∃ d, owns (c : Thread nD τ) (sm3 t) fullShare ((dats m 0 c).before 3 t d))
    ∗ (∃ d, owns (c : Thread nD τ) (sm4 t) fullShare ((dats m 0 c).before 4 t d))
    ∗ (∃ d, owns (c : Thread nD τ) (sm5 t) fullShare ((dats m 0 c).before 5 t d))
    ∗ (∃ d, owns (c : Thread nD τ) (sm6 t) fullShare ((dats m 0 c).before 6 t d))
    ∗ (∃ d, owns (c : Thread nD τ) (sm7 t) fullShare ((dats m 0 c).before 7 t d)))

def bodyPost (c : Dev nD) (t : Fin cfg0.N) : sProp 𝕄 :=
  iprop((dats m 0 c).Φ t.succ ∗ (dats m 0 c).owesAt () t.succ
    ∗ owns (c : Thread nD τ) (sm0 t) fullShare ((dats m 0 c).after 0 t)
    ∗ owns (c : Thread nD τ) (sm1 t) fullShare ((dats m 0 c).after 1 t)
    ∗ owns (c : Thread nD τ) (sm2 t) fullShare ((dats m 0 c).after 2 t)
    ∗ owns (c : Thread nD τ) (sm3 t) fullShare ((dats m 0 c).after 3 t)
    ∗ owns (c : Thread nD τ) (sm4 t) fullShare ((dats m 0 c).after 4 t)
    ∗ owns (c : Thread nD τ) (sm5 t) fullShare ((dats m 0 c).after 5 t)
    ∗ owns (c : Thread nD τ) (sm6 t) fullShare ((dats m 0 c).after 6 t)
    ∗ owns (c : Thread nD τ) (sm7 t) fullShare ((dats m 0 c).after 7 t))

set_option maxHeartbeats 1600000 in
/-- The body at any point: the inputs' buffers hold their blocks; the position within the run of eight says which
    branch is taken; at a later point the output buffer holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5, before_in6]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_out]
  by_cases h : t.val % 8 = 0
  · rw [accAt_first m c t h]
    unfold firstVal
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runFirst c (grid0.coords t) _ _ _ _ _ _ _ _ _ _ _ _ _ _ _ _ ((first_iff t).mpr h) (fun h2 => (later_iff t).mp h2 h)
      (iblk m c 0 t) (iblk m c 1 t) (iblk m c 2 t) (iblk m c 3 t) (iblk m c 4 t) (iblk m c 5 t) (iblk m c 6 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact storedFirst c _ _ _ _ _ _ _ _ _ _ _ _ _ _ _ _ _ _ _ _ _ _ _ _ _ _ _ _
  · rw [accAt_later m c t h]
    simp only [before_out_later m c t h]
    unfold contrib
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((runLater c (grid0.coords t) _ _ _ _ _ _ _ _ _ _ _ _ _ _ _ _ (fun h1 => h ((first_iff t).mp h1)) ((later_iff t).mpr h)
      (iblk m c 0 t) (iblk m c 1 t) (iblk m c 2 t) (iblk m c 3 t) (iblk m c 4 t) (iblk m c 5 t) (iblk m c 6 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iintro ⟨H0, H1, H2, H3, H4, H5, H6, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    unfold owns; iexists _; isplitr
    swap; · iexact H7
    ipureintro; exact storedLater c _ _ _ _ _ _ _ _ _ _ _ _ _ _ _ _ _ _ _ _ _ _ _ _ _ _ _ _ _

end Cert.KernelIdeal.Hand

end
-- ==== Proof.KI.Run.lean ====
/- The body's obligation at every point of the grid, the run of the whole program (it terminates, nothing faults)
   and the frame: every argument array ends as it began. -/
import proofs.«175175_j17128329576653_2_alg».proof.Proof.KI.Frame

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem body_obligation (c : Dev nD) : BodyObligation (dats (F := F) m 0 c) (defs₀ (F := F)) Variants.none () Set.univ := fun t => by
  rw [bigSep_W0, bigSep_W0]
  rw [out_live (cfg0.grid.coords t)]
  exact sound_body m c t

/-! ## The run and the frame -/

set_option backward.isDefEq.respectTransparency.types false in
/-- Every weakly fair execution of the program terminates, and every final state has each array of the pipeline at
    what the proof data says and every other buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to its end and its seven argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Hand

end
-- ==== Proof.LibRowSoftmax.lean ====
/-
  General lemmas for kernels that take a softmax along the rows of a matrix and multiply matrices row by column,
  read at an index given by coordinates, on the extended reals. Independent of any program.

  * `expRows s` — every row of `s` minus its maximum, exponentiated — and `normRows e` — every row of `e` over its
    sum — are written with the vector operations a kernel body prints (a lane reduction, the result kept as a column,
    the column broadcast back along the row), with the shape facts and the accumulator facts as arguments, so that a
    printed body is such a term by `rfl`. `expRows_apply` and `normRows_apply` read them at `(p, j)`: the entry's
    distance below the fold of `max` over row `p`, exponentiated; the entry over the `Fin n` sum of row `p`.
  * `matmul_rows_cols_apply` — a product `[a, n] · [n, b]` into the zero accumulator, read at `(p, c)`, is the sum
    over `k : Fin n` of the left factor at `(p, k)` times the right factor at `(k, c)`; the two kept-axis coordinate
    facts of the dimension numbers are the caller's (they are decided on the printed record).
-/
import Idealize.ShloMosaic.PureOps
import Idealize.ShloMosaic.PureOps.Ideal.Laws
import Idealize.ShloMosaic.Lib.ValueIdx
import Idealize.ShloMosaic.Lib.Pipeline.Value

noncomputable section

open scoped BigOperators

namespace Cert.RowSoftmax

open Idealize.ShloMosaic Idealize.ShloMosaic.ValueIdx

section Layout

variable {α : Type} {a n : ℕ}

/-- A vector `[a]` kept as the column `[a, 1]` holds, at `(p, u)`, the vector's entry `p`. -/
theorem column_apply (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    omega)

/-- A column `[a, 1]` broadcast along the rows to `[a, n]` holds, at `(p, c)`, the column's entry `p`. -/
theorem column_broadcast_apply (v : (⟨2, ![a, 1]⟩ : Shape).Idx → α)
    (h : (⟨2, ![a, 1]⟩ : Shape).Broadcasts ⟨2, ![a, n]⟩) (p : Fin a) (c : Fin n) :
    broadcastTo ⟨2, ![a, n]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Row `p` with the column coordinate `k` put back is the index `(p, k)`. -/
theorem row_lift (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

end Layout

section Terms

variable {F : FTy → Type} [FloatOps F] {a n : ℕ}

/-- Every row minus its maximum, exponentiated. -/
def expRows (s : FVec F ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  exp (subf s (broadcastTo ⟨2, ![a, n]⟩
    (shapeCast ⟨2, ![a, 1]⟩ (multiReduction .maximumf [1] ⟨1, ![a]⟩ s 0xFF800000#32 hr hφ hacc) hc) hb))

/-- Every row over its sum. -/
def normRows (e : FVec F ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩) :
    FVec F ⟨2, ![a, n]⟩ .f32 :=
  divf e (broadcastTo ⟨2, ![a, n]⟩
    (shapeCast ⟨2, ![a, 1]⟩ (multiReduction .add [1] ⟨1, ![a]⟩ e 0x00000000#32 hr hφ hacc) hc) hb)

end Terms

variable {a n : ℕ}

/-- Entry `(p, j)` of the exponentials: the exponential of the entry's distance below row `p`'s maximum, the
    maximum a fold of `max` from the accumulator word's value over the row. -/
theorem expRows_apply (s : FVec Ideal ⟨2, ![a, n]⟩ .f32)
    (hr : (⟨2, ![a, n]⟩ : Shape).Reduces [1] (⟨1, ![a]⟩ : Shape)) (hφ : FKind.Formats .f32)
    (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    expRows s hr hφ hacc hc hb (ix2 p j)
      = Ideal.exp (s (ix2 p j)
          - (Finset.univ : Finset (Fin n)).fold max (Ideal.ofBits .f32 0xFF800000#32) (fun j' => s (ix2 p j'))) := by
  unfold expRows
  show Ideal.exp (s (ix2 p j) - broadcastTo ⟨2, ![a, n]⟩ _ hb (ix2 p j)) = _
  rw [column_broadcast_apply, column_apply]
  refine congrArg (fun x => Ideal.exp (s (ix2 p j) - x)) ?_
  exact (Ideal.multiReduction_maximumf_single s _ hr hφ hacc (ix1 p)).trans
    (congrArg (fun f => (Finset.univ : Finset (Fin n)).fold max (Ideal.ofBits .f32 0xFF800000#32) f)
      (funext fun k => congrArg s (row_lift hr p k)))

/-- Entry `(p, j)` of the normalised rows: the entry over the sum of row `p`. -/
theorem normRows_apply (e : FVec Ideal ⟨2, ![a, n]⟩ .f32)
    (hr : (⟨2, ![a, n]⟩ : Shape).Reduces [1] (⟨1, ![a]⟩ : Shape)) (hφ : FKind.Formats .f32)
    (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, n]⟩)
    (p : Fin a) (j : Fin n) :
    normRows e hr hφ hacc hc hb (ix2 p j) = Ideal.div (e (ix2 p j)) (∑ j' : Fin n, e (ix2 p j')) := by
  unfold normRows
  rw [divf_apply, column_broadcast_apply, column_apply]
  refine congrArg (Ideal.div (e (ix2 p j))) ?_
  exact (Ideal.multiReduction_add_single e _ hr hφ hacc (ix1 p)).trans
    (Finset.sum_congr rfl fun k _ => congrArg e (row_lift hr p k))

/-- A rows-by-columns product `[a, n] · [n, b]` into the zero accumulator, read at `(p, c)`: the sum over the shared
    axis of row `p` of the left factor against column `c` of the right one. The contracted coordinates follow from
    which axes are contracted; the kept ones (`hl0`, `hr1`) are the caller's. -/
theorem matmul_rows_cols_apply {b : ℕ} (d : DotDims ⟨2, ![a, n]⟩ ⟨2, ![n, b]⟩ ⟨2, ![a, b]⟩)
    (hr : d.contr.rank = 1) (hs : d.contr.size ⟨0, by omega⟩ = n)
    (hlc : d.lhsContracting = [1]) (hrc : d.rhsContracting = [0])
    (hl0 : ∀ (i : (⟨2, ![a, b]⟩ : Shape).Idx) (q : d.contr.Idx), (d.lhsIdx i q 0).val = (i 0).val)
    (hr1 : ∀ (i : (⟨2, ![a, b]⟩ : Shape).Idx) (q : d.contr.Idx), (d.rhsIdx i q 1).val = (i 1).val)
    {φ₁ φ₂ : FTy} (prec : Option ContractPrecision) (lhs : FVec Ideal ⟨2, ![a, n]⟩ φ₁) (rhs : FVec Ideal ⟨2, ![n, b]⟩ φ₂)
    (p : Fin a) (c : Fin b) :
    FloatOps.matmul d prec lhs rhs (constant ⟨2, ![a, b]⟩ .f32 0x00000000#32) (ix2 p c)
      = ∑ k : Fin n, lhs (ix2 p k) * rhs (ix2 k c) := by
  rw [Ideal.matmul_constant_zero_apply, ← Equiv.sum_comp (contrEquiv1 d n hr hs).symm]
  refine Finset.sum_congr rfl fun k _ => ?_
  have hk := contrEquiv1_symm_val d n hr hs k
  have hL : d.lhsIdx (ix2 p c) ((contrEquiv1 d n hr hs).symm k) = ix2 p k := by
    funext ax; apply Fin.ext
    match ax with
    | ⟨0, _⟩ => exact hl0 _ _
    | ⟨1, _⟩ => exact (d.lhsIdx_val_of_single hlc _ _).trans hk
  have hR : d.rhsIdx (ix2 p c) ((contrEquiv1 d n hr hs).symm k) = ix2 k c := by
    funext ax; apply Fin.ext
    match ax with
    | ⟨0, _⟩ => exact (d.rhsIdx_val_of_single hrc _ _).trans hk
    | ⟨1, _⟩ => exact hr1 _ _
  rw [hL, hR]

end Cert.RowSoftmax

end
-- ==== Proof.KI.Payload.lean ====
/- The body's arithmetic read at an index, on the extended reals.

   From the blocks a grid point loads — a token block `v0` [1,1024,1024], two weight slices [1,1024,512] with their
   bias rows [1,1,512], a slice of the output projection `v23` [1,512,1024] — the body forms, for token `p` and hidden
   column `k` of the slice, the two projections `Σ_i v0(p,i)·w(i,k) + b(k)`, their product `q`, the gated value
   `q·σ(q)`, and multiplies the [1024,512] matrix of gated values by the projection slice. A change of float format
   is the identity here, and a matrix product into the zero accumulator is the plain sum. -/
import proofs.«175175_j17128329576653_2_alg».proof.Proof.Gen.KernelIdeal.Skeleton
import proofs.«175175_j17128329576653_2_alg».proof.Proof.LibRowSoftmax
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.ValueIdx
open Cert.KernelIdeal Cert.KernelIdeal.Gen

/-! ## The two products' kept coordinates -/

theorem dotA_l0 (i : S1024x512.Idx) (q : dot_S1024x1024_S1024x512_S1024x512_1_0_0_1_n_n.contr.Idx) : (dot_S1024x1024_S1024x512_S1024x512_1_0_0_1_n_n.lhsIdx i q 0).val = (i 0).val := by
  unfold DotDims.lhsIdx
  rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
  rfl
theorem dotA_r1 (i : S1024x512.Idx) (q : dot_S1024x1024_S1024x512_S1024x512_1_0_0_1_n_n.contr.Idx) : (dot_S1024x1024_S1024x512_S1024x512_1_0_0_1_n_n.rhsIdx i q 1).val = (i 1).val := by
  unfold DotDims.rhsIdx
  rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
  rfl
theorem dotB_l0 (i : S1024x1024.Idx) (q : dot_S1024x512_S512x1024_S1024x1024_1_0_0_1_n_n.contr.Idx) : (dot_S1024x512_S512x1024_S1024x1024_1_0_0_1_n_n.lhsIdx i q 0).val = (i 0).val := by
  unfold DotDims.lhsIdx
  rw [dif_neg (show ¬(0 : Fin S1024x512.rank) ∈ dot_S1024x512_S512x1024_S1024x1024_1_0_0_1_n_n.lhsBatch by decide), dif_pos (show (0 : Fin S1024x512.rank) ∈ dot_S1024x512_S512x1024_S1024x1024_1_0_0_1_n_n.lhsNonContracting by decide)]
  rfl
theorem dotB_r1 (i : S1024x1024.Idx) (q : dot_S1024x512_S512x1024_S1024x1024_1_0_0_1_n_n.contr.Idx) : (dot_S1024x512_S512x1024_S1024x1024_1_0_0_1_n_n.rhsIdx i q 1).val = (i 1).val := by
  unfold DotDims.rhsIdx
  rw [dif_neg (show ¬(1 : Fin S512x1024.rank) ∈ dot_S1024x512_S512x1024_S1024x1024_1_0_0_1_n_n.rhsBatch by decide), dif_pos (show (1 : Fin S512x1024.rank) ∈ dot_S1024x512_S512x1024_S1024x1024_1_0_0_1_n_n.rhsNonContracting by decide)]
  rfl

/-! ## One projection of the token block -/

/-- The [1024,512] matrix of one projection, as the body writes it. -/
def preact (v0 : Vec Ideal S1x1024x1024 .f32) (w : Vec Ideal S1x1024x512 .f32) (b : Vec Ideal S1x1x512 .f32) : FVec Ideal S1024x512 .f32 :=
  addf (matmul dot_S1024x1024_S1024x512_S1024x512_1_0_0_1_n_n none (truncf .bf16 (shapeCast S1024x1024 v0 shapeCasts_S1x1024x1024_S1024x1024) bitsLt_bf16_f32)
      (truncf .bf16 (shapeCast S1024x512 w shapeCasts_S1x1024x512_S1024x512) bitsLt_bf16_f32) (constant S1024x512 .f32 0x00000000#32))
    (broadcastTo S1024x512 (shapeCast S1x512 b shapeCasts_S1x1x512_S1x512) broadcasts_S1x512_S1024x512)

/-- Its entry for token `p` and column `k`: the row of the token block against the column of the weight slice, plus the bias. -/
def projBlk (v0 : Vec Ideal S1x1024x1024 .f32) (w : Vec Ideal S1x1024x512 .f32) (b : Vec Ideal S1x1x512 .f32) (p : Fin 1024) (k : Fin 512) : EReal :=
  (∑ i : Fin 1024, v0 (ix3 (0 : Fin 1) p i) * w (ix3 (0 : Fin 1) i k)) + b (ix3 (0 : Fin 1) (0 : Fin 1) k)

theorem preact_apply (v0 : Vec Ideal S1x1024x1024 .f32) (w : Vec Ideal S1x1024x512 .f32) (b : Vec Ideal S1x1x512 .f32) (p : Fin 1024) (k : Fin 512) :
    preact v0 w b (ix2 p k) = projBlk v0 w b p k := by
  unfold preact projBlk
  rw [addf_apply, broadcastTo_1b_ab_apply, shapeCast_1ab_ab_apply]
  refine congrArg (· + b (ix3 (0 : Fin 1) (0 : Fin 1) k)) ?_
  refine (Cert.RowSoftmax.matmul_rows_cols_apply dot_S1024x1024_S1024x512_S1024x512_1_0_0_1_n_n rfl rfl rfl rfl dotA_l0 dotA_r1 none _ _ p k).trans ?_
  refine Finset.sum_congr rfl fun i _ => ?_
  rw [truncf_apply, truncf_apply, shapeCast_1ab_ab_apply, shapeCast_1ab_ab_apply]

/-! ## The step's contribution -/

/-- The gated value `q·σ(q)` of the product `q` of the two projections. -/
def gateBlk (v0 : Vec Ideal S1x1024x1024 .f32) (v3 : Vec Ideal S1x1024x512 .f32) (v10 : Vec Ideal S1x1x512 .f32)
    (v6 : Vec Ideal S1x1024x512 .f32) (v15 : Vec Ideal S1x1x512 .f32) (p : Fin 1024) (k : Fin 512) : EReal :=
  (projBlk v0 v3 v10 p k * projBlk v0 v6 v15 p k) * Ideal.logistic (projBlk v0 v3 v10 p k * projBlk v0 v6 v15 p k)

/-- The contribution, with its bindings substituted. -/
theorem contrib_form (v0 : Vec Ideal S1x1024x1024 .f32) (v3 v6 : Vec Ideal S1x1024x512 .f32) (v10 v15 : Vec Ideal S1x1x512 .f32) (v23 : Vec Ideal S1x512x1024 .f32) :
    k0_pay2 v0 v3 v6 v10 v15 v23
      = matmul dot_S1024x512_S512x1024_S1024x1024_1_0_0_1_n_n none
          (truncf .bf16 (mulf (mulf (preact v0 v3 v10) (preact v0 v6 v15)) (logistic (mulf (preact v0 v3 v10) (preact v0 v6 v15)))) bitsLt_bf16_f32)
          (truncf .bf16 (shapeCast S512x1024 v23 shapeCasts_S1x512x1024_S512x1024) bitsLt_bf16_f32)
          (constant S1024x1024 .f32 0x00000000#32) := rfl

/-- The contribution at token `p`, output column `o`: the gated values of the token against the column of the slice. -/
theorem contrib_apply (v0 : Vec Ideal S1x1024x1024 .f32) (v3 v6 : Vec Ideal S1x1024x512 .f32) (v10 v15 : Vec Ideal S1x1x512 .f32) (v23 : Vec Ideal S1x512x1024 .f32)
    (p o : Fin 1024) :
    k0_pay2 v0 v3 v6 v10 v15 v23 (ix2 p o) = ∑ k : Fin 512, gateBlk v0 v3 v10 v6 v15 p k * v23 (ix3 (0 : Fin 1) k o) := by
  rw [contrib_form]
  refine (Cert.RowSoftmax.matmul_rows_cols_apply dot_S1024x512_S512x1024_S1024x1024_1_0_0_1_n_n rfl rfl rfl rfl dotB_l0 dotB_r1 none _ _ p o).trans ?_
  refine Finset.sum_congr rfl fun k _ => ?_
  rw [truncf_apply, truncf_apply, shapeCast_1ab_ab_apply]
  show (preact v0 v3 v10 (ix2 p k) * preact v0 v6 v15 (ix2 p k)) * Ideal.logistic (preact v0 v3 v10 (ix2 p k) * preact v0 v6 v15 (ix2 p k)) * v23 (ix3 (0 : Fin 1) k o) = _
  rw [preact_apply, preact_apply]
  rfl

/-! ## The two stores -/

/-- What a first point stores, at token `p`, column `o`: the contribution plus the output bias. -/
theorem first_apply (v0 : Vec Ideal S1x1024x1024 .f32) (v3 v6 : Vec Ideal S1x1024x512 .f32) (v10 v15 : Vec Ideal S1x1x512 .f32) (v23 : Vec Ideal S1x512x1024 .f32)
    (v33 : Vec Ideal S1x1x1024 .f32) (u : Fin 1) (p o : Fin 1024) :
    k0_pay3 v0 v3 v6 v10 v15 v23 v33 (ix3 u p o) = k0_pay2 v0 v3 v6 v10 v15 v23 (ix2 p o) + v33 (ix3 (0 : Fin 1) (0 : Fin 1) o) := by
  have e : k0_pay3 v0 v3 v6 v10 v15 v23 v33
      = shapeCast S1x1024x1024 (addf (k0_pay2 v0 v3 v6 v10 v15 v23)
          (broadcastTo S1024x1024 (shapeCast S1x1024 v33 shapeCasts_S1x1x1024_S1x1024) broadcasts_S1x1024_S1024x1024))
          shapeCasts_S1024x1024_S1x1024x1024 := rfl
  rw [e, shapeCast_ab_1ab_apply, addf_apply, broadcastTo_1b_ab_apply, shapeCast_1ab_ab_apply]

/-- What a later point stores: the old contents plus the contribution. -/
theorem later_apply (v26 : FVec Ideal S1024x1024 .f32) (v33 : Vec Ideal S1x1024x1024 .f32) (u : Fin 1) (p o : Fin 1024) :
    k0_pay1 v26 v33 (ix3 u p o) = v33 (ix3 (0 : Fin 1) p o) + v26 (ix2 p o) := by
  have e : k0_pay1 v26 v33
      = shapeCast S1x1024x1024 (addf (shapeCast S1024x1024 v33 shapeCasts_S1x1024x1024_S1024x1024) v26) shapeCasts_S1024x1024_S1x1024x1024 := rfl
  rw [e, shapeCast_ab_1ab_apply, addf_apply, shapeCast_1ab_ab_apply]

end Cert.KernelIdeal.Hand

end
-- ==== Proof.KI.Blocks.lean ====
/- Each window's block at a grid point, read at an index, is an entry of the argument array.

   The 128 grid points run over (expert, token half, hidden slice) with the slice fastest: point `t` is expert
   `t / 16`, token half `t / 8 % 2`, slice `t % 8`. The token block and the output block are rows
   `half·1024 …` of the expert's 2048 tokens; the weight slices are columns `512·slice …` of the 4096 hidden
   columns (rows of the output projection); the output bias is the expert's row. -/
import proofs.«175175_j17128329576653_2_alg».proof.Proof.Gen.KernelIdeal.Frame
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

/-- Row `p` of token half `tt` among an expert's 2048 tokens. -/
def rowOf (tt : Fin 2) (p : Fin 1024) : Fin 2048 := ⟨tt.val * 1024 + p.val, by have := tt.isLt; have := p.isLt; omega⟩
/-- Column `k` of hidden slice `h` among the 4096 hidden columns. -/
def colOf (h : Fin 8) (k : Fin 512) : Fin 4096 := ⟨512 * h.val + k.val, by have := h.isLt; have := k.isLt; omega⟩

/-! ## The index maps, decided over the grid -/

theorem idx0 : ∀ t : Fin cfg0.N, win0_0.index t (0 : Fin 3) = t.val / 16 ∧ win0_0.index t (1 : Fin 3) = t.val / 8 % 2 ∧ win0_0.index t (2 : Fin 3) = 0 :=
  (by decide +kernel : ∀ t : Fin grid0.N, win0_0.index t (0 : Fin 3) = t.val / 16 ∧ win0_0.index t (1 : Fin 3) = t.val / 8 % 2 ∧ win0_0.index t (2 : Fin 3) = 0)
theorem idx1 : ∀ t : Fin cfg0.N, win0_1.index t (0 : Fin 3) = t.val / 16 ∧ win0_1.index t (1 : Fin 3) = 0 ∧ win0_1.index t (2 : Fin 3) = t.val % 8 :=
  (by decide +kernel : ∀ t : Fin grid0.N, win0_1.index t (0 : Fin 3) = t.val / 16 ∧ win0_1.index t (1 : Fin 3) = 0 ∧ win0_1.index t (2 : Fin 3) = t.val % 8)
theorem idx2 : ∀ t : Fin cfg0.N, win0_2.index t (0 : Fin 3) = t.val / 16 ∧ win0_2.index t (1 : Fin 3) = 0 ∧ win0_2.index t (2 : Fin 3) = t.val % 8 :=
  (by decide +kernel : ∀ t : Fin grid0.N, win0_2.index t (0 : Fin 3) = t.val / 16 ∧ win0_2.index t (1 : Fin 3) = 0 ∧ win0_2.index t (2 : Fin 3) = t.val % 8)
theorem idx3 : ∀ t : Fin cfg0.N, win0_3.index t (0 : Fin 3) = t.val / 16 ∧ win0_3.index t (1 : Fin 3) = 0 ∧ win0_3.index t (2 : Fin 3) = t.val % 8 :=
  (by decide +kernel : ∀ t : Fin grid0.N, win0_3.index t (0 : Fin 3) = t.val / 16 ∧ win0_3.index t (1 : Fin 3) = 0 ∧ win0_3.index t (2 : Fin 3) = t.val % 8)
theorem idx4 : ∀ t : Fin cfg0.N, win0_4.index t (0 : Fin 3) = t.val / 16 ∧ win0_4.index t (1 : Fin 3) = 0 ∧ win0_4.index t (2 : Fin 3) = t.val % 8 :=
  (by decide +kernel : ∀ t : Fin grid0.N, win0_4.index t (0 : Fin 3) = t.val / 16 ∧ win0_4.index t (1 : Fin 3) = 0 ∧ win0_4.index t (2 : Fin 3) = t.val % 8)
theorem idx5 : ∀ t : Fin cfg0.N, win0_5.index t (0 : Fin 3) = t.val / 16 ∧ win0_5.index t (1 : Fin 3) = t.val % 8 ∧ win0_5.index t (2 : Fin 3) = 0 :=
  (by decide +kernel : ∀ t : Fin grid0.N, win0_5.index t (0 : Fin 3) = t.val / 16 ∧ win0_5.index t (1 : Fin 3) = t.val % 8 ∧ win0_5.index t (2 : Fin 3) = 0)
theorem idx6 : ∀ t : Fin cfg0.N, win0_6.index t (0 : Fin 3) = t.val / 16 ∧ win0_6.index t (1 : Fin 3) = 0 ∧ win0_6.index t (2 : Fin 3) = 0 :=
  (by decide +kernel : ∀ t : Fin grid0.N, win0_6.index t (0 : Fin 3) = t.val / 16 ∧ win0_6.index t (1 : Fin 3) = 0 ∧ win0_6.index t (2 : Fin 3) = 0)
theorem idx7 : ∀ t : Fin cfg0.N, win0_7.index t (0 : Fin 3) = t.val / 16 ∧ win0_7.index t (1 : Fin 3) = t.val / 8 % 2 ∧ win0_7.index t (2 : Fin 3) = 0 :=
  (by decide +kernel : ∀ t : Fin grid0.N, win0_7.index t (0 : Fin 3) = t.val / 16 ∧ win0_7.index t (1 : Fin 3) = t.val / 8 % 2 ∧ win0_7.index t (2 : Fin 3) = 0)

/-! ## The blocks read at an index -/

theorem blk0 (c : Dev nD) (t : Fin cfg0.N) (e : Fin 8) (he : e.val = t.val / 16) (tt : Fin 2) (htt : tt.val = t.val / 8 % 2) (p i : Fin 1024) :
    iblk m c 0 t (ix3 (0 : Fin 1) p i) = V m c main_arg0 (ix3 e (rowOf tt p) i) := by
  obtain ⟨e0, e1, e2⟩ := idx0 t
  show V m c main_arg0 (((cfg0.win 0).blk t).view.emb (ix3 (0 : Fin 1) p i)) = _
  refine congrArg (V m c main_arg0) (funext fun a => Fin.ext ?_)
  match a with
  | ⟨0, _⟩ => show win0_0.index t (0 : Fin 3) * 1 + 1 * ((0 : Fin 1) : ℕ) = e.val; omega
  | ⟨1, _⟩ => show win0_0.index t (1 : Fin 3) * 1024 + 1 * p.val = tt.val * 1024 + p.val; omega
  | ⟨2, _⟩ => show win0_0.index t (2 : Fin 3) * 1024 + 1 * i.val = i.val; omega

theorem blk1 (c : Dev nD) (t : Fin cfg0.N) (e : Fin 8) (he : e.val = t.val / 16) (h : Fin 8) (hh : h.val = t.val % 8) (i : Fin 1024) (k : Fin 512) :
    iblk m c 1 t (ix3 (0 : Fin 1) i k) = V m c main_arg1 (ix3 e i (colOf h k)) := by
  obtain ⟨e0, e1, e2⟩ := idx1 t
  show V m c main_arg1 (((cfg0.win 1).blk t).view.emb (ix3 (0 : Fin 1) i k)) = _
  refine congrArg (V m c main_arg1) (funext fun a => Fin.ext ?_)
  match a with
  | ⟨0, _⟩ => show win0_1.index t (0 : Fin 3) * 1 + 1 * ((0 : Fin 1) : ℕ) = e.val; omega
  | ⟨1, _⟩ => show win0_1.index t (1 : Fin 3) * 1024 + 1 * i.val = i.val; omega
  | ⟨2, _⟩ => show win0_1.index t (2 : Fin 3) * 512 + 1 * k.val = 512 * h.val + k.val; omega

theorem blk2 (c : Dev nD) (t : Fin cfg0.N) (e : Fin 8) (he : e.val = t.val / 16) (h : Fin 8) (hh : h.val = t.val % 8) (k : Fin 512) :
    iblk m c 2 t (ix3 (0 : Fin 1) (0 : Fin 1) k) = V m c main_arg2 (ix3 e (0 : Fin 1) (colOf h k)) := by
  obtain ⟨e0, e1, e2⟩ := idx2 t
  show V m c main_arg2 (((cfg0.win 2).blk t).view.emb (ix3 (0 : Fin 1) (0 : Fin 1) k)) = _
  refine congrArg (V m c main_arg2) (funext fun a => Fin.ext ?_)
  match a with
  | ⟨0, _⟩ => show win0_2.index t (0 : Fin 3) * 1 + 1 * ((0 : Fin 1) : ℕ) = e.val; omega
  | ⟨1, _⟩ => show win0_2.index t (1 : Fin 3) * 1 + 1 * ((0 : Fin 1) : ℕ) = 0; omega
  | ⟨2, _⟩ => show win0_2.index t (2 : Fin 3) * 512 + 1 * k.val = 512 * h.val + k.val; omega

theorem blk3 (c : Dev nD) (t : Fin cfg0.N) (e : Fin 8) (he : e.val = t.val / 16) (h : Fin 8) (hh : h.val = t.val % 8) (i : Fin 1024) (k : Fin 512) :
    iblk m c 3 t (ix3 (0 : Fin 1) i k) = V m c main_arg3 (ix3 e i (colOf h k)) := by
  obtain ⟨e0, e1, e2⟩ := idx3 t
  show V m c main_arg3 (((cfg0.win 3).blk t).view.emb (ix3 (0 : Fin 1) i k)) = _
  refine congrArg (V m c main_arg3) (funext fun a => Fin.ext ?_)
  match a with
  | ⟨0, _⟩ => show win0_3.index t (0 : Fin 3) * 1 + 1 * ((0 : Fin 1) : ℕ) = e.val; omega
  | ⟨1, _⟩ => show win0_3.index t (1 : Fin 3) * 1024 + 1 * i.val = i.val; omega
  | ⟨2, _⟩ => show win0_3.index t (2 : Fin 3) * 512 + 1 * k.val = 512 * h.val + k.val; omega

theorem blk4 (c : Dev nD) (t : Fin cfg0.N) (e : Fin 8) (he : e.val = t.val / 16) (h : Fin 8) (hh : h.val = t.val % 8) (k : Fin 512) :
    iblk m c 4 t (ix3 (0 : Fin 1) (0 : Fin 1) k) = V m c main_arg4 (ix3 e (0 : Fin 1) (colOf h k)) := by
  obtain ⟨e0, e1, e2⟩ := idx4 t
  show V m c main_arg4 (((cfg0.win 4).blk t).view.emb (ix3 (0 : Fin 1) (0 : Fin 1) k)) = _
  refine congrArg (V m c main_arg4) (funext fun a => Fin.ext ?_)
  match a with
  | ⟨0, _⟩ => show win0_4.index t (0 : Fin 3) * 1 + 1 * ((0 : Fin 1) : ℕ) = e.val; omega
  | ⟨1, _⟩ => show win0_4.index t (1 : Fin 3) * 1 + 1 * ((0 : Fin 1) : ℕ) = 0; omega
  | ⟨2, _⟩ => show win0_4.index t (2 : Fin 3) * 512 + 1 * k.val = 512 * h.val + k.val; omega

theorem blk5 (c : Dev nD) (t : Fin cfg0.N) (e : Fin 8) (he : e.val = t.val / 16) (h : Fin 8) (hh : h.val = t.val % 8) (k : Fin 512) (o : Fin 1024) :
    iblk m c 5 t (ix3 (0 : Fin 1) k o) = V m c main_arg5 (ix3 e (colOf h k) o) := by
  obtain ⟨e0, e1, e2⟩ := idx5 t
  show V m c main_arg5 (((cfg0.win 5).blk t).view.emb (ix3 (0 : Fin 1) k o)) = _
  refine congrArg (V m c main_arg5) (funext fun a => Fin.ext ?_)
  match a with
  | ⟨0, _⟩ => show win0_5.index t (0 : Fin 3) * 1 + 1 * ((0 : Fin 1) : ℕ) = e.val; omega
  | ⟨1, _⟩ => show win0_5.index t (1 : Fin 3) * 512 + 1 * k.val = 512 * h.val + k.val; omega
  | ⟨2, _⟩ => show win0_5.index t (2 : Fin 3) * 1024 + 1 * o.val = o.val; omega

theorem blk6 (c : Dev nD) (t : Fin cfg0.N) (e : Fin 8) (he : e.val = t.val / 16) (o : Fin 1024) :
    iblk m c 6 t (ix3 (0 : Fin 1) (0 : Fin 1) o) = V m c main_arg6 (ix3 e (0 : Fin 1) o) := by
  obtain ⟨e0, e1, e2⟩ := idx6 t
  show V m c main_arg6 (((cfg0.win 6).blk t).view.emb (ix3 (0 : Fin 1) (0 : Fin 1) o)) = _
  refine congrArg (V m c main_arg6) (funext fun a => Fin.ext ?_)
  match a with
  | ⟨0, _⟩ => show win0_6.index t (0 : Fin 3) * 1 + 1 * ((0 : Fin 1) : ℕ) = e.val; omega
  | ⟨1, _⟩ => show win0_6.index t (1 : Fin 3) * 1 + 1 * ((0 : Fin 1) : ℕ) = 0; omega
  | ⟨2, _⟩ => show win0_6.index t (2 : Fin 3) * 1024 + 1 * o.val = o.val; omega

end Cert.KernelIdeal.Hand

end
-- ==== Proof.LibUnitAxisSums.lean ====
/-
  General lemmas about unit axes and sums over index sets, independent of any program.

  * `shapeCast_a_a1_apply`: a vector of length `a` viewed as a column `[a, 1]` (a row reduction kept with
    `keepdims=True`) reads, at `(i, u)`, the vector's entry `i`.
  * `sum_idx1`: a sum over the index set of a rank-1 shape `[n]` is the sum over `Fin n`.
  * `sum_idx_1n1`: a sum over the index set of the shape `[1, n, 1]` is the sum over its middle coordinate.
  * `sum_fin_blocks`: a sum over `Fin (q * n)` cut into `q` consecutive blocks of `n`:
    `∑ i, g i = ∑ b, ∑ r, g (n * b + r)`.
-/
import Idealize.ShloMosaic.Lib.Pipeline.Value
import Idealize.ShloMosaic.Lib.ValueIdx

noncomputable section

open scoped BigOperators

namespace Idealize.ShloMosaic.ValueIdx

open Idealize.ShloMosaic

variable {α : Type}

/-- An `[a]` array cast to the column `[a, 1]` reads, at `(i, u)`, the operand at `i`: both sit at row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The index set of the rank-1 shape `[n]` is `Fin n` … -/
def idxEquiv1 {n : Nat} : (⟨1, ![n]⟩ : Shape).Idx ≃ Fin n where
  toFun i := i 0
  invFun r := ix1 r
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ r : Fin n, f (ix1 r) := by
  rw [← Equiv.sum_comp (idxEquiv1 (n := n)).symm f]
  rfl

/-- The index set of the shape `[1, n, 1]` is `Fin n`: the two unit coordinates are `0`. -/
def idxEquiv_1n1 {n : Nat} : (⟨3, ![1, n, 1]⟩ : Shape).Idx ≃ Fin n where
  toFun i := i 1
  invFun r := ix3 (0 : Fin 1) r (0 : Fin 1)
  left_inv i := by
    funext a
    match a with
    | ⟨0, _⟩ => exact Fin.ext (by have h : (i 0).val < 1 := (i 0).isLt; show 0 = (i 0).val; omega)
    | ⟨1, _⟩ => rfl
    | ⟨2, _⟩ => exact Fin.ext (by have h : (i 2).val < 1 := (i 2).isLt; show 0 = (i 2).val; omega)
  right_inv _ := rfl

/-- … so a sum over it is the sum over the middle coordinate. -/
theorem sum_idx_1n1 {M : Type*} [AddCommMonoid M] {n : Nat} (f : (⟨3, ![1, n, 1]⟩ : Shape).Idx → M) :
    ∑ i, f i = ∑ r : Fin n, f (ix3 (0 : Fin 1) r (0 : Fin 1)) := by
  rw [← Equiv.sum_comp (idxEquiv_1n1 (n := n)).symm f]
  rfl

/-- A sum over `q * n` consecutive positions, cut into `q` blocks of `n`. -/
theorem sum_fin_blocks {M : Type*} [AddCommMonoid M] (q n : Nat) (g : Fin (q * n) → M) :
    ∑ i, g i = ∑ b : Fin q, ∑ r : Fin n, g ⟨n * b.val + r.val, by
      have hb := b.isLt; have hr := r.isLt
      calc n * b.val + r.val < n * b.val + n := by omega
        _ = n * (b.val + 1) := by ring
        _ ≤ n * q := Nat.mul_le_mul_left n hb
        _ = q * n := Nat.mul_comm n q⟩ := by
  rw [← Equiv.sum_comp (finProdFinEquiv : Fin q × Fin n ≃ Fin (q * n)) g, Fintype.sum_prod_type]
  refine Finset.sum_congr rfl fun b _ => Finset.sum_congr rfl fun r _ => congrArg g (Fin.ext ?_)
  show r.val + n * b.val = n * b.val + r.val
  omega

end Idealize.ShloMosaic.ValueIdx

end
-- ==== Proof.Spec.lean ====
/- The function both programs compute, index by index over the extended reals, and the two laws that join their
   arrangements.

   For expert `e`, token `r` and output column `o`:
     h(e,r,j) = Σ_i x(e,r,i)·w_fc(e,i,j) + b_fc(e,0,j)        g(e,r,j) = Σ_i x(e,r,i)·w_gate(e,i,j) + b_gate(e,0,j)
     a(e,r,j) = q · σ(q)  with q = h·g and σ the logistic function
     out(e,r,o) = Σ_j a(e,r,j)·w_proj(e,j,o) + b_proj(e,0,o)
   The reference sums over all 4096 hidden columns at once and adds the bias last; the kernel adds the bias to the
   first slice of 512 and then the other seven slices one after the other. Addition of extended reals is commutative
   and associative, so the two agree with no finiteness assumption. -/
import Idealize.ShloMosaic.PureOps.Ideal
import Idealize.ShloMosaic.PureOps.Ideal.Laws
import Idealize.ShloMosaic.Lib.ValueIdx
import Idealize.ShloMosaic.Lib.IdealHost
import proofs.«175175_j17128329576653_2_alg».proof.Proof.LibUnitAxisSums

noncomputable section

open scoped BigOperators

namespace Cert.Spec

open Idealize.ShloMosaic Idealize.ShloMosaic.ValueIdx

abbrev TX := (⟨3, ![8, 2048, 1024]⟩ : Shape).Idx → EReal
abbrev TW := (⟨3, ![8, 1024, 4096]⟩ : Shape).Idx → EReal
abbrev TB := (⟨3, ![8, 1, 4096]⟩ : Shape).Idx → EReal
abbrev TP := (⟨3, ![8, 4096, 1024]⟩ : Shape).Idx → EReal
abbrev TO := (⟨3, ![8, 1, 1024]⟩ : Shape).Idx → EReal

/-- One projection of a token: the row of `x` against a column of the weight, plus the bias entry. -/
def proj (x : TX) (w : TW) (b : TB) (e : Fin 8) (r : Fin 2048) (j : Fin 4096) : EReal :=
  (∑ i : Fin 1024, x (ix3 e r i) * w (ix3 e i j)) + b (ix3 e (0 : Fin 1) j)

/-- The gated activation `q · σ(q)` of the product `q` of the two projections. -/
def act (x : TX) (wfc : TW) (bfc : TB) (wg : TW) (bg : TB) (e : Fin 8) (r : Fin 2048) (j : Fin 4096) : EReal :=
  (proj x wfc bfc e r j * proj x wg bg e r j) * Ideal.logistic (proj x wfc bfc e r j * proj x wg bg e r j)

/-- The result array. -/
def G (x : TX) (wfc : TW) (bfc : TB) (wg : TW) (bg : TB) (wp : TP) (bp : TO) : TX := fun i =>
  (∑ j : Fin 4096, act x wfc bfc wg bg (i 0) (i 1) j * wp (ix3 (i 0) j (i 2))) + bp (ix3 (i 0) (0 : Fin 1) (i 2))

/-- The word of `1.0` denotes one. -/
theorem one_bits : Ideal.ofBits .f32 0x3F800000#32 = (1 : EReal) := Ideal.ofBits_one_f32

/-- The logistic function spelt out with host operations — `1 / (1 + exp (-q))` — is the logistic function. -/
theorem logistic_spelt (q : EReal) :
    FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32) q)))
      = Ideal.logistic q := by
  rw [one_bits]; rfl

/-- Adding a bias to the first term and then the later terms one by one gives the sum of all terms plus the bias. -/
theorem chain_sum {M : Type*} [AddCommMonoid M] (c : ℕ → M) (b : M) (s : ℕ → M)
    (h0 : s 0 = c 0 + b) (hs : ∀ r, s (r + 1) = s r + c (r + 1)) (r : ℕ) :
    s r = (∑ h ∈ Finset.range (r + 1), c h) + b := by
  induction r with
  | zero => rw [h0, Finset.sum_range_one]
  | succ r ih => rw [hs, ih, Finset.sum_range_succ _ (r + 1), add_right_comm]

/-- A sum over the 4096 hidden columns is the sum over the eight slices of 512. -/
theorem sum_slices {M : Type*} [AddCommMonoid M] (g : Fin 4096 → M) :
    ∑ j, g j = ∑ h ∈ Finset.range 8,
      (if hh : h < 8 then ∑ k : Fin 512, g ⟨512 * h + k.val, by have := k.isLt; omega⟩ else 0) := by
  rw [sum_fin_blocks 8 512 g, Finset.sum_range]
  refine Finset.sum_congr rfl fun b _ => ?_
  rw [dif_pos b.isLt]

end Cert.Spec

end
-- ==== Proof.KI.Acc.lean ====
/- What the output block's buffer holds after each grid point, on the extended reals.

   Within a run of eight points (one expert, one token half) the first point leaves "slice 0's contribution + bias"
   and each later point adds its slice's contribution. So after the point at position `r` of its run the buffer
   holds, at token `p` and column `o`, the sum of the contributions of slices `0 … r` plus the bias entry — where the
   contribution of slice `h` is the sum over the slice's 512 hidden columns of the gated value times the output
   projection's entry. -/
import proofs.«175175_j17128329576653_2_alg».proof.Proof.KI.Frame
import proofs.«175175_j17128329576653_2_alg».proof.Proof.KI.Payload
import proofs.«175175_j17128329576653_2_alg».proof.Proof.KI.Blocks
import proofs.«175175_j17128329576653_2_alg».proof.Proof.Spec

set_option maxRecDepth 16384

noncomputable section

open scoped BigOperators

namespace Cert.KernelIdeal.Hand

open Idealize.ShloMosaic Idealize.ShloMosaic.TcCoe Idealize.ShloMosaic.ValueIdx
open Idealize.SL.Sem
open Cert.KernelIdeal Cert.KernelIdeal.Gen Cert.Spec

variable (m : (ℓ : Loc nD τ sig) → Buf (Elt Ideal) ℓ)

/-- The contribution of hidden slice `h` to the result at expert `e`, token `row`, column `o`. -/
def slab (c : Dev nD) (e : Fin 8) (row : Fin 2048) (h : Fin 8) (o : Fin 1024) : EReal :=
  ∑ k : Fin 512, act (V m c main_arg0) (V m c main_arg1) (V m c main_arg2) (V m c main_arg3) (V m c main_arg4) e row (colOf h k) * V m c main_arg5 (ix3 e (colOf h k) o)

/-- The same with the slice a natural number (zero past the eighth). -/
def slabN (c : Dev nD) (e : Fin 8) (row : Fin 2048) (h : ℕ) (o : Fin 1024) : EReal :=
  if hh : h < 8 then slab m c e row ⟨h, hh⟩ o else 0

/-- The contribution the body forms at point `t` is the contribution of the point's slice. -/
theorem contrib_point (c : Dev nD) (t : Fin cfg0.N) (e : Fin 8) (he : e.val = t.val / 16) (tt : Fin 2) (htt : tt.val = t.val / 8 % 2)
    (h : Fin 8) (hh : h.val = t.val % 8) (p o : Fin 1024) :
    contrib m c t (ix2 p o) = slab m c e (rowOf tt p) h o := by
  unfold contrib slab
  rw [contrib_apply]
  refine Finset.sum_congr rfl fun k _ => ?_
  rw [blk5 m c t e he h hh k o]
  refine congrArg (· * V m c main_arg5 (ix3 e (colOf h k) o)) ?_
  unfold gateBlk projBlk act proj
  simp only [blk0 m c t e he tt htt, blk1 m c t e he h hh, blk2 m c t e he h hh, blk3 m c t e he h hh, blk4 m c t e he h hh]

/-- What a first point stores is its slice's contribution plus the bias entry. -/
theorem first_point (c : Dev nD) (t : Fin cfg0.N) (e : Fin 8) (he : e.val = t.val / 16) (tt : Fin 2) (htt : tt.val = t.val / 8 % 2)
    (h : Fin 8) (hh : h.val = t.val % 8) (u : Fin 1) (p o : Fin 1024) :
    firstVal m c t (ix3 u p o) = slab m c e (rowOf tt p) h o + V m c main_arg6 (ix3 e (0 : Fin 1) o) := by
  unfold firstVal
  rw [first_apply, blk6 m c t e he o]
  exact congrArg (· + V m c main_arg6 (ix3 e (0 : Fin 1) o)) (contrib_point m c t e he tt htt h hh p o)

/-- After position `n`: the contributions of the slices up to the position within the run, plus the bias. -/
theorem acc_eq (c : Dev nD) (n : ℕ) : ∀ (hn : n < cfg0.N) (e : Fin 8) (tt : Fin 2), e.val = n / 16 → tt.val = n / 8 % 2 →
    ∀ (u : Fin 1) (p o : Fin 1024),
      accAt m c n hn (ix3 u p o)
        = (∑ h ∈ Finset.range (n % 8 + 1), slabN m c e (rowOf tt p) h o) + V m c main_arg6 (ix3 e (0 : Fin 1) o) := by
  induction n using Nat.strong_induction_on with
  | _ n ih =>
    intro hn e tt he htt u p o
    have hN : n < 128 := lt_of_lt_of_eq hn N_0
    by_cases h8 : n % 8 = 0
    · rw [accAt_first m c ⟨n, hn⟩ h8, first_point m c ⟨n, hn⟩ e he tt htt ⟨0, by omega⟩ h8.symm u p o, h8, Nat.zero_add,
        Finset.sum_range_one]
      unfold slabN; rw [dif_pos (by omega : 0 < 8)]
    · rw [accAt_later m c ⟨n, hn⟩ h8, later_apply,
        ih (n - 1) (by omega) _ e tt (by omega) (by omega) 0 p o,
        contrib_point m c ⟨n, hn⟩ e he tt htt ⟨n % 8, by omega⟩ rfl p o]
      have e1 : n % 8 + 1 = ((n - 1) % 8 + 1) + 1 := by omega
      have e2 : slabN m c e (rowOf tt p) ((n - 1) % 8 + 1) o = slab m c e (rowOf tt p) ⟨n % 8, by omega⟩ o := by
        unfold slabN; rw [dif_pos (by omega : (n - 1) % 8 + 1 < 8)]
        exact congrArg (fun hF => slab m c e (rowOf tt p) hF o) (Fin.ext (by show (n - 1) % 8 + 1 = n % 8; omega))
      rw [e1, Finset.sum_range_succ _ ((n - 1) % 8 + 1), e2, add_right_comm]

end Cert.KernelIdeal.Hand

end
-- ==== Proof.KI.Final.lean ====
/- The result array after the run is the specification of the argument arrays.

   The output block of an (expert, token half) pair is written back once, after the eighth point of its run, when it
   holds all eight slices' contributions plus the bias: the specification's sum over the 4096 hidden columns, cut into
   its eight slices. The sixteen blocks written back tile the result array. -/
import proofs.«175175_j17128329576653_2_alg».proof.Proof.KI.Run
import proofs.«175175_j17128329576653_2_alg».proof.Proof.KI.Acc

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.Spec

variable (m : (ℓ : Loc nD τ sig) → Buf (Elt Ideal) ℓ) (ρ : Dev nD → PrngReg)

/-- The specification of the argument arrays as the region finds them. -/
def Gm (c : Dev nD) : S8x2048x1024.Idx → EReal := G (V m c main_arg0) (V m c main_arg1) (V m c main_arg2) (V m c main_arg3) (V m c main_arg4) (V m c main_arg5) (V m c main_arg6)

/-- After the last point of a run the output buffer holds the specification's entries for the run's token rows. -/
theorem acc_last (c : Dev nD) (t : Fin cfg0.N) (h7 : t.val % 8 = 7) (e : Fin 8) (he : e.val = t.val / 16)
    (tt : Fin 2) (htt : tt.val = t.val / 8 % 2) (u : Fin 1) (p o : Fin 1024) :
    accAt m c t.val t.isLt (ix3 u p o) = Gm m c (ix3 e (rowOf tt p) o) := by
  rw [acc_eq m c t.val t.isLt e tt he htt u p o, show t.val % 8 + 1 = 8 by omega]
  show _ = (∑ j : Fin 4096, act (V m c main_arg0) (V m c main_arg1) (V m c main_arg2) (V m c main_arg3) (V m c main_arg4) e (rowOf tt p) j * V m c main_arg5 (ix3 e j o))
      + V m c main_arg6 (ix3 e (0 : Fin 1) o)
  rw [sum_slices]
  refine congrArg (· + V m c main_arg6 (ix3 e (0 : Fin 1) o)) (Finset.sum_congr rfl fun h hh => ?_)
  have h8 : h < 8 := Finset.mem_range.mp hh
  unfold slabN
  rw [dif_pos h8, dif_pos h8]
  rfl

/-- What a flushing point writes back is its block of the specification. -/
theorem flushed_eq (c : Dev nD) (t : Fin cfg0.N) (hf : (cfg0.win 7).flush t = true) :
    (dats m 0 c).flushed 7 t = ((cfg0.win 7).blk t).view.read (Elt Ideal) (Gm m c) := by
  have h7 : t.val % 8 = 7 := (flush0_7 t).mp hf
  have hN : t.val < 128 := lt_of_lt_of_eq t.isLt N_0
  obtain ⟨e0, e1, e2⟩ := idx7 t
  show (cfg0.win 7).cut (grid0.coords t) ((dats m 0 c).after 7 t) = _
  rw [after_out]
  funext j
  show accAt m c t.val t.isLt j = Gm m c (((cfg0.win 7).blk t).view.emb j)
  have hj : (j : S1x1024x1024.Idx) = ix3 (j 0) (j 1) (j 2) := eq_ix3 j
  refine ((congrArg (accAt m c t.val t.isLt) hj).trans
    (acc_last m c t h7 ⟨t.val / 16, by omega⟩ rfl ⟨t.val / 8 % 2, by omega⟩ rfl (j 0) (j 1) (j 2))).trans
    (congrArg (Gm m c) (funext fun a => Fin.ext ?_))
  match a with
  | ⟨0, _⟩ => show t.val / 16 = win0_7.index t (0 : Fin 3) * 1 + 1 * (j 0).val; have hj0 : (j 0).val < 1 := (j 0).isLt; omega
  | ⟨1, _⟩ => show t.val / 8 % 2 * 1024 + (j 1).val = win0_7.index t (1 : Fin 3) * 1024 + 1 * (j 1).val; omega
  | ⟨2, _⟩ => show (j 2).val = win0_7.index t (2 : Fin 3) * 1024 + 1 * (j 2).val; omega

/-- An index of the result array is in point `t`'s block iff each coordinate is in the block's range. -/
theorem mem_blk (t : Fin cfg0.N) (i : S8x2048x1024.Idx) :
    i ∈ ((cfg0.win 7).blk t).view.set ↔ ∀ a : Fin 3, win0_7.index t a * S1x1024x1024.size a ≤ (i a).val
      ∧ (i a).val < win0_7.index t a * S1x1024x1024.size a + S1x1024x1024.size a := by
  show i ∈ ((View.whole main_v0).slice (win0_7.rect t)).set ↔ _
  rw [View.set_slice_whole, Rect.mem_set_unit]
  exact Iff.rfl

/-- Every index of the result array is in the block some flushing point writes back. -/
theorem covered (i : S8x2048x1024.Idx) :
    ∃ t : Fin cfg0.N, (cfg0.win 7).flush t = true ∧ i ∈ ((cfg0.win 7).blk t).view.set := by
  have h0 : (i 0).val < 8 := (i 0).isLt
  have h1 : (i 1).val < 2048 := (i 1).isLt
  have h2 : (i 2).val < 1024 := (i 2).isLt
  have hlt : (i 0).val * 16 + (i 1).val / 1024 * 8 + 7 < cfg0.N := lt_of_lt_of_eq (by omega : _ < 128) N_0.symm
  refine ⟨⟨(i 0).val * 16 + (i 1).val / 1024 * 8 + 7, hlt⟩, (flush0_7 _).mpr (by show ((i 0).val * 16 + (i 1).val / 1024 * 8 + 7) % 8 = 7; omega), ?_⟩
  obtain ⟨e0, e1, e2⟩ := idx7 ⟨(i 0).val * 16 + (i 1).val / 1024 * 8 + 7, hlt⟩
  have e0' : win0_7.index ⟨(i 0).val * 16 + (i 1).val / 1024 * 8 + 7, hlt⟩ (0 : Fin 3) = ((i 0).val * 16 + (i 1).val / 1024 * 8 + 7) / 16 := e0
  have e1' : win0_7.index ⟨(i 0).val * 16 + (i 1).val / 1024 * 8 + 7, hlt⟩ (1 : Fin 3) = ((i 0).val * 16 + (i 1).val / 1024 * 8 + 7) / 8 % 2 := e1
  rw [mem_blk]
  intro a
  match a with
  | ⟨0, _⟩ =>
    show win0_7.index _ (0 : Fin 3) * 1 ≤ (i 0).val ∧ (i 0).val < win0_7.index _ (0 : Fin 3) * 1 + 1
    omega
  | ⟨1, _⟩ =>
    show win0_7.index _ (1 : Fin 3) * 1024 ≤ (i 1).val ∧ (i 1).val < win0_7.index _ (1 : Fin 3) * 1024 + 1024
    omega
  | ⟨2, _⟩ =>
    show win0_7.index _ (2 : Fin 3) * 1024 ≤ (i 2).val ∧ (i 2).val < win0_7.index _ (2 : Fin 3) * 1024 + 1024
    omega

/-- The result array after the run. -/
theorem final (c : Dev nD) : (dats m 0 c).arrAt 7 cfg0.N = Gm m c :=
  (dats m 0 c).arrAt_eq_of_cover 7 (Gm m c) (fun t hf => flushed_eq m c t hf) covered

/-- The run, read: the result array holds the specification of the argument arrays, which end unchanged. -/
theorem run_value : θ_run defs (onTc (τ := τ) (main (F := Ideal))) ⟨m, fun _ => 0, ρ⟩ fun r => ∀ c : Dev nD,
      r.2.mem ((c.tc : Thread nD τ).loc main_v0) = Gm m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 7).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Hand

end
-- ==== Proof.Ref.lean ====
/- The reference's result, stage by stage, is the specification: its two batched products are the projections' sums,
   its logistic function spelt as `1 / (1 + exp (-q))` is the logistic function, and its last batched product plus the
   broadcast bias is the specification's sum over the 4096 hidden columns plus the bias entry. -/
import proofs.«175175_j17128329576653_2_alg».proof.Proof.Gen.ReferenceIdeal.Read
import proofs.«175175_j17128329576653_2_alg».proof.Proof.Spec

noncomputable section

open scoped BigOperators

namespace Cert.ReferenceIdeal.Spelt

open Cert.ReferenceIdeal Cert.ReferenceIdeal.Gen Cert.ReferenceIdeal.Read Idealize.ShloMosaic Idealize.ShloMosaic.ValueIdx Cert.Spec

/-- The product of the two projections, as the reference forms it. -/
theorem prod_apply (x0 : (⟨S8x2048x1024, .f32⟩ : BufTy).Contents (Elt Ideal)) (x1 : (⟨S8x1024x4096, .f32⟩ : BufTy).Contents (Elt Ideal)) (x2 : (⟨S8x1x4096, .f32⟩ : BufTy).Contents (Elt Ideal)) (x3 : (⟨S8x1024x4096, .f32⟩ : BufTy).Contents (Elt Ideal)) (x4 : (⟨S8x1x4096, .f32⟩ : BufTy).Contents (Elt Ideal)) (e : Fin 8) (r : Fin 2048) (j : Fin 4096) :
    val_main_v6 (F := Ideal) x0 x1 x2 x3 x4 (ix3 e r j) = proj x0 x1 x2 e r j * proj x0 x3 x4 e r j := by
  have l0 : ∀ k, lidx_main_v0 (ix3 e r j) k = ix3 e r k := fun k => funext fun a => by match a with | ⟨0, _⟩ => rfl | ⟨1, _⟩ => rfl | ⟨2, _⟩ => rfl
  have r0 : ∀ k, ridx_main_v0 (ix3 e r j) k = ix3 e k j := fun k => funext fun a => by match a with | ⟨0, _⟩ => rfl | ⟨1, _⟩ => rfl | ⟨2, _⟩ => rfl
  have l3 : ∀ k, lidx_main_v3 (ix3 e r j) k = ix3 e r k := fun k => funext fun a => by match a with | ⟨0, _⟩ => rfl | ⟨1, _⟩ => rfl | ⟨2, _⟩ => rfl
  have r3 : ∀ k, ridx_main_v3 (ix3 e r j) k = ix3 e k j := fun k => funext fun a => by match a with | ⟨0, _⟩ => rfl | ⟨1, _⟩ => rfl | ⟨2, _⟩ => rfl
  have b1 : idx_main_v1 (ix3 e r j) = ix3 e (0 : Fin 1) j := funext fun a => by match a with | ⟨0, _⟩ => rfl | ⟨1, _⟩ => rfl | ⟨2, _⟩ => rfl
  have b4 : idx_main_v4 (ix3 e r j) = ix3 e (0 : Fin 1) j := funext fun a => by match a with | ⟨0, _⟩ => rfl | ⟨1, _⟩ => rfl | ⟨2, _⟩ => rfl
  rw [val_main_v6_apply, val_main_v2_apply, val_main_v5_apply, val_main_v0_apply, val_main_v3_apply, val_main_v1_apply,
    val_main_v4_apply, b1, b4]
  simp only [l0, r0, l3, r3]
  rfl

/-- The gated value, as the reference forms it. -/
theorem act_apply (x0 : (⟨S8x2048x1024, .f32⟩ : BufTy).Contents (Elt Ideal)) (x1 : (⟨S8x1024x4096, .f32⟩ : BufTy).Contents (Elt Ideal)) (x2 : (⟨S8x1x4096, .f32⟩ : BufTy).Contents (Elt Ideal)) (x3 : (⟨S8x1024x4096, .f32⟩ : BufTy).Contents (Elt Ideal)) (x4 : (⟨S8x1x4096, .f32⟩ : BufTy).Contents (Elt Ideal)) (e : Fin 8) (r : Fin 2048) (j : Fin 4096) :
    val_main_v7 (F := Ideal) x0 x1 x2 x3 x4 (ix3 e r j) = act x0 x1 x2 x3 x4 e r j := by
  rw [val_main_v7_apply, val_main_call0_v5_apply, val_main_call0_v4_apply, val_main_call0_cst_0_apply,
    val_main_call0_v3_apply, val_main_call0_v2_apply, val_main_call0_cst_apply, val_main_call0_v1_apply,
    val_main_call0_v0_apply, prod_apply]
  exact congrArg ((proj x0 x1 x2 e r j * proj x0 x3 x4 e r j) * ·) (logistic_spelt _)

/-- The reference's result is the specification of its arguments. -/
theorem result_eq (x0 : (⟨S8x2048x1024, .f32⟩ : BufTy).Contents (Elt Ideal)) (x1 : (⟨S8x1024x4096, .f32⟩ : BufTy).Contents (Elt Ideal)) (x2 : (⟨S8x1x4096, .f32⟩ : BufTy).Contents (Elt Ideal)) (x3 : (⟨S8x1024x4096, .f32⟩ : BufTy).Contents (Elt Ideal)) (x4 : (⟨S8x1x4096, .f32⟩ : BufTy).Contents (Elt Ideal)) (x5 : (⟨S8x4096x1024, .f32⟩ : BufTy).Contents (Elt Ideal)) (x6 : (⟨S8x1x1024, .f32⟩ : BufTy).Contents (Elt Ideal)) :
    val_main_v10 (F := Ideal) x0 x1 x2 x3 x4 x5 x6 = G x0 x1 x2 x3 x4 x5 x6 := by
  funext i
  have l8 : ∀ k, lidx_main_v8 i k = ix3 (i 0) (i 1) k := fun k => funext fun a => by match a with | ⟨0, _⟩ => rfl | ⟨1, _⟩ => rfl | ⟨2, _⟩ => rfl
  have r8 : ∀ k, ridx_main_v8 i k = ix3 (i 0) k (i 2) := fun k => funext fun a => by match a with | ⟨0, _⟩ => rfl | ⟨1, _⟩ => rfl | ⟨2, _⟩ => rfl
  have b9 : idx_main_v9 i = ix3 (i 0) (0 : Fin 1) (i 2) := funext fun a => by match a with | ⟨0, _⟩ => rfl | ⟨1, _⟩ => rfl | ⟨2, _⟩ => rfl
  rw [val_main_v10_apply, val_main_v8_apply, val_main_v9_apply, b9]
  show (∑ k : Fin 4096, val_main_v7 (F := Ideal) x0 x1 x2 x3 x4 (lidx_main_v8 i k) * x5 (ridx_main_v8 i k))
      + x6 (ix3 (i 0) (0 : Fin 1) (i 2)) = _
  unfold G
  refine congrArg (· + x6 (ix3 (i 0) (0 : Fin 1) (i 2))) (Finset.sum_congr rfl fun k _ => ?_)
  rw [l8, r8]
  exact congrArg (· * x5 (ix3 (i 0) k (i 2))) (act_apply x0 x1 x2 x3 x4 (i 0) (i 1) k)

end Cert.ReferenceIdeal.Spelt

end
-- ==== Proof.lean ====
/- Equivalence of a grouped, gated feed-forward kernel with its reference over the extended reals.

   For each of 8 experts, 2048 tokens and 1024 output columns both programs compute
     out(e,r,o) = Σ_j a(e,r,j)·w_proj(e,j,o) + b_proj(e,0,o),   a = q·σ(q),   q = (x·w_fc + b_fc)·(x·w_gate + b_gate),
   with σ the logistic function. The kernel walks a grid of (expert, token half, hidden slice): for each expert and
   token half it accumulates the eight hidden slices' contributions in the output block, adding the bias at the first
   slice, and writes the block back after the eighth. The reference takes the three batched products whole. On the
   extended reals a change of float format is the identity and sums may be regrouped freely, so the two results agree
   entry by entry; no finiteness of the inputs is used.

   The three frames: each program terminates without fault and leaves its arguments unchanged (the kernel's by running
   its body at every grid point, at the word level and at the ideal level; the reference's by its straight-line run).
   The idealization rewrote nothing, so it preserves the kernel trivially. -/
import proofs.«175175_j17128329576653_2_alg».proof.Defs
import proofs.«175175_j17128329576653_2_alg».proof.Proof.K.Run
import proofs.«175175_j17128329576653_2_alg».proof.Proof.KI.Final
import proofs.«175175_j17128329576653_2_alg».proof.Proof.Ref
import proofs.«175175_j17128329576653_2_alg».proof.Proof.Gen.Kernel
import proofs.«175175_j17128329576653_2_alg».proof.Proof.Gen.KernelIdeal
import proofs.«175175_j17128329576653_2_alg».proof.Proof.Gen.ReferenceIdeal
import proofs.«175175_j17128329576653_2_alg».proof.Proof.Gen.ReferenceIdeal.Run
import proofs.«175175_j17128329576653_2_alg».proof.Proof.Gen.ReferenceIdeal.Read
import proofs.«175175_j17128329576653_2_alg».proof.Proof.Gen.Pre_finite_inputs
import Idealize.ShloMosaic.Adequacy
import Idealize.ShloMosaic.Init

noncomputable section

namespace Cert.Proof

open Idealize.ShloMosaic Idealize.SL.Sem

/-- The kernel as printed runs to its end and leaves its arguments unchanged. -/
theorem frame_kernel : Cert.frame_Kernel := fun m ρ _ => Cert.Kernel.Hand.frame m ρ

/-- So does the kernel read at the ideal values. -/
theorem frame_kernel_ideal : Cert.frame_KernelIdeal := fun m ρ _ => Cert.KernelIdeal.Hand.frame m ρ

/-- The reference's straight-line run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the specification of the (agreeing) arguments in their result arrays. -/
theorem algebraic : Cert.algebraic_KernelIdeal_ReferenceIdeal := by
  intro m ρ m' ρ' _ hagree
  refine ⟨fun c => Cert.KernelIdeal.Hand.Gm m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.Spelt.result_eq, (hagree c).1, (hagree c).2.1,
    (hagree c).2.2.1, (hagree c).2.2.2.1, (hagree c).2.2.2.2.1, (hagree c).2.2.2.2.2.1, (hagree c).2.2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
